-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel

variable [Facts]

def fn {F : FTy → Type} [FloatOps F] (main_arg0 : FVec F S524288x128 .f32) (main_arg1 : FVec F S524288x128 .f32) (main_arg2 : FVec F S524288x128 .f32) (main_arg3 : IVec S524288 32) (main_arg4 : IVec S524288 32) (main_arg5 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  main_v13
-- ==== Kernel.lean ====
abbrev S524288x128 : Shape := ⟨2, ![524288, 128]⟩
abbrev S524288 : Shape := ⟨1, ![524288]⟩
abbrev S2x1x128 : Shape := ⟨3, ![2, 1, 128]⟩
abbrev S8192x128 : Shape := ⟨2, ![8192, 128]⟩
abbrev S1x1x128 : Shape := ⟨3, ![1, 1, 128]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S1x128 : Shape := ⟨2, ![1, 128]⟩
abbrev S2x1x1 : Shape := ⟨3, ![2, 1, 1]⟩
abbrev S2 : Shape := ⟨1, ![2]⟩
abbrev S_ : Shape := ⟨0, ![]⟩

abbrev nBuf : Space → Nat
  | .hbm => 40
  | .vmem => 12
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S2x1x128, .f32⟩
  | .hbm, ⟨7, _⟩ => ⟨S2x1x1, .f32⟩
  | .hbm, ⟨8, _⟩ => ⟨S2, .f32⟩
  | .hbm, ⟨9, _⟩ => ⟨S_, .f32⟩
  | .hbm, ⟨10, _⟩ => ⟨S_, .f32⟩
  | .hbm, ⟨11, _⟩ => ⟨S2x1x1, .f32⟩
  | .hbm, ⟨12, _⟩ => ⟨S2, .f32⟩
  | .hbm, ⟨13, _⟩ => ⟨S_, .f32⟩
  | .hbm, ⟨14, _⟩ => ⟨S_, .f32⟩
  | .hbm, ⟨15, _⟩ => ⟨S2x1x1, .f32⟩
  | .hbm, ⟨16, _⟩ => ⟨S2, .f32⟩
  | .hbm, ⟨17, _⟩ => ⟨S_, .f32⟩
  | .hbm, ⟨18, _⟩ => ⟨S_, .f32⟩
  | .hbm, ⟨19, _⟩ => ⟨S2x1x1, .f32⟩
  | .hbm, ⟨20, _⟩ => ⟨S2, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .i1⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x1x128, .f32⟩
  | .local _ .vmem, ⟨7, _⟩ => ⟨S1x1x128, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_call0_v0 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_cst_6 : Ref sig .tc := ⟨.hbm, 30, rfl⟩
abbrev main_call1_v0 : Ref sig .tc := ⟨.hbm, 31, rfl⟩
abbrev main_v16 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_cst_8 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v92 : BitVec 1 := Scalar.cmpi .eq arg1 c31_i32
  let v93 : BitVec 32 := Scalar.extui v92
  let c0_i32_40 : BitVec 32 := 0#32
  let v94 : BitVec 1 := Scalar.cmpi .ne v93 c0_i32_40
  v94

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  natLt_1_32 : 1 < 32
  iota_S1x128_d1_w32 : S1x128.Iotas .tc 32 [1]
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  slices_S2x1x128_S2x1x1_0_0_1 : S2x1x128.Slices ![0, 0, 1] S2x1x1
  slices_S2x1x128_S2x1x1_0_0_2 : S2x1x128.Slices ![0, 0, 2] S2x1x1
  slices_S2x1x128_S2x1x1_0_0_3 : S2x1x128.Slices ![0, 0, 3] S2x1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S524288x128 : Shape := ⟨2, ![524288, 128]⟩
abbrev S524288 : Shape := ⟨1, ![524288]⟩
abbrev S_ : Shape := ⟨0, ![]⟩
abbrev S524288x1 : Shape := ⟨2, ![524288, 1]⟩

abbrev nBuf : Space → Nat
  | .hbm => 102
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288, .i32⟩
  | .hbm, ⟨4, _⟩ => ⟨S524288, .i32⟩
  | .hbm, ⟨5, _⟩ => ⟨S524288, .i32⟩
  | .hbm, ⟨6, _⟩ => ⟨S524288x128, .f32⟩
  | .hbm, ⟨7, _⟩ => ⟨S_, .f32⟩
  | .hbm, ⟨8, _⟩ => ⟨S524288, .f32⟩
  | .hbm, ⟨9, _⟩ => ⟨S524288x1, .f32⟩
  | .hbm, ⟨10, _⟩ => ⟨S524288x1, .f32⟩
  | .hbm, ⟨11, _⟩ => ⟨S_, .f32⟩
  | .hbm, ⟨12, _⟩ => ⟨S524288x1, .f32⟩
  | .hbm, ⟨13, _⟩ => ⟨S524288x1, .f32⟩
  | .hbm, ⟨14, _⟩ => ⟨S524288x128, .f32⟩
  | .hbm, ⟨15, _⟩ => ⟨S524288x128, .f32⟩
  | .hbm, ⟨16, _⟩ => ⟨S524288x128, .f32⟩
  | .hbm, ⟨17, _⟩ => ⟨S_, .f32⟩
  | .hbm, ⟨18, _⟩ => ⟨S524288, .f32⟩
  | .hbm, ⟨19, _⟩ => ⟨S524288x1, .f32⟩
  | .hbm, ⟨20, _⟩ => ⟨S524288x1, .f32⟩
  | .hbm, ⟨21, _⟩ => ⟨S_, .f32⟩
  | .hbm, ⟨22, _⟩ => ⟨S524288x1, .f32⟩
  | .hbm, ⟨23, _⟩ => ⟨S524288x1, .f32⟩
  | .hbm, ⟨24, _⟩ => ⟨S524288x128, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288, .f32⟩
  | .hbm, ⟨29, _⟩ => ⟨S524288x1, .f32⟩
  | .hbm, ⟨30, _⟩ => ⟨S524288x1, .f32⟩
  | .hbm, ⟨31, _⟩ => ⟨S_, .f32⟩
  | .hbm, ⟨32, _⟩ => ⟨S524288x1, .f32⟩
  | .hbm, ⟨33, _⟩ => ⟨S524288x1, .f32⟩
  | .hbm, ⟨34, _⟩ => ⟨S524288x128, .f32⟩
  | .hbm, ⟨35, _⟩ => ⟨S524288x128, .f32⟩
  | .hbm, ⟨36, _⟩ => ⟨S524288x128, .f32⟩
  | .hbm, ⟨37, _⟩ => ⟨S_, .f32⟩
  | .hbm, ⟨38, _⟩ => ⟨S524288, .f32⟩
  | .hbm, ⟨39, _⟩ => ⟨S524288x128, .f32⟩
  | .hbm, ⟨40, _⟩ => ⟨S_, .f32⟩
  | .hbm, ⟨41, _⟩ => ⟨S524288, .f32⟩
  | .hbm, ⟨42, _⟩ => ⟨S524288, .i1⟩
  | .hbm, ⟨43, _⟩ => ⟨S_, .f32⟩
  | .hbm, ⟨44, _⟩ => ⟨S524288, .f32⟩
  | .hbm, ⟨45, _⟩ => ⟨S524288, .i1⟩
  | .hbm, ⟨46, _⟩ => ⟨S524288, .i1⟩
  | .hbm, ⟨47, _⟩ => ⟨S_, .f32⟩
  | .hbm, ⟨48, _⟩ => ⟨S_, .f32⟩
  | .hbm, ⟨49, _⟩ => ⟨S524288, .f32⟩
  | .hbm, ⟨50, _⟩ => ⟨S524288, .f32⟩
  | .hbm, ⟨51, _⟩ => ⟨S_, .f32⟩
  | .hbm, ⟨52, _⟩ => ⟨S_, .f32⟩
  | .hbm, ⟨53, _⟩ => ⟨S524288, .i32⟩
  | .hbm, ⟨54, _⟩ => ⟨S_, .i32⟩
  | .hbm, ⟨55, _⟩ => ⟨S_, .i32⟩
  | .hbm, ⟨56, _⟩ => ⟨S524288, .i1⟩
  | .hbm, ⟨57, _⟩ => ⟨S524288, .f32⟩
  | .hbm, ⟨58, _⟩ => ⟨S_, .f32⟩
  | .hbm, ⟨59, _⟩ => ⟨S524288, .f32⟩
  | .hbm, ⟨60, _⟩ => ⟨S524288, .f32⟩
  | .hbm, ⟨61, _⟩ => ⟨S_, .f32⟩
  | .hbm, ⟨62, _⟩ => ⟨S524288, .f32⟩
  | .hbm, ⟨63, _⟩ => ⟨S524288, .f32⟩
  | .hbm, ⟨64, _⟩ => ⟨S524288, .f32⟩
  | .hbm, ⟨65, _⟩ => ⟨S524288, .f32⟩
  | .hbm, ⟨66, _⟩ => ⟨S524288, .i1⟩
  | .hbm, ⟨67, _⟩ => ⟨S524288, .f32⟩
  | .hbm, ⟨68, _⟩ => ⟨S524288, .f32⟩
  | .hbm, ⟨69, _⟩ => ⟨S524288, .f32⟩
  | .hbm, ⟨70, _⟩ => ⟨S524288, .f32⟩
  | .hbm, ⟨71, _⟩ => ⟨S524288, .f32⟩
  | .hbm, ⟨72, _⟩ => ⟨S524288, .f32⟩
  | .hbm, ⟨73, _⟩ => ⟨S524288, .f32⟩
  | .hbm, ⟨74, _⟩ => ⟨S524288, .f32⟩
  | .hbm, ⟨75, _⟩ => ⟨S_, .f32⟩
  | .hbm, ⟨76, _⟩ => ⟨S_, .f32⟩
  | .hbm, ⟨77, _⟩ => ⟨S524288, .f32⟩
  | .hbm, ⟨78, _⟩ => ⟨S524288, .f32⟩
  | .hbm, ⟨79, _⟩ => ⟨S_, .f32⟩
  | .hbm, ⟨80, _⟩ => ⟨S_, .f32⟩
  | .hbm, ⟨81, _⟩ => ⟨S524288, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .i32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_c : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v40 : Ref sig .tc := ⟨.hbm, 74, rfl⟩
abbrev main_cst_11 : Ref sig .tc := ⟨.hbm, 75, rfl⟩
abbrev main_call2_v0 : Ref sig .tc := ⟨.hbm, 76, rfl⟩
abbrev main_call2_v1 : Ref sig .tc := ⟨.hbm, 77, rfl⟩
abbrev main_v41 : Ref sig .tc := ⟨.hbm, 78, rfl⟩
abbrev main_cst_12 : Ref sig .tc := ⟨.hbm, 79, rfl⟩
abbrev main_v42 : Ref sig .tc := ⟨.hbm, 80, rfl⟩
abbrev main_v43 : Ref sig .tc := ⟨.hbm, 81, rfl⟩
abbrev main_c_13 : Ref sig .tc := ⟨.hbm, 82, rfl⟩
abbrev main_v44 : Ref sig .tc := ⟨.hbm, 83, rfl⟩
abbrev main_c_14 : Ref sig .tc := ⟨.hbm, 84, rfl⟩
abbrev main_v45 : Ref sig .tc := ⟨.hbm, 85, rfl⟩
abbrev main_cst_15 : Ref sig .tc := ⟨.hbm, 86, rfl⟩
abbrev main_call3_v0 : Ref sig .tc := ⟨.hbm, 87, rfl⟩
abbrev main_v46 : Ref sig .tc := ⟨.hbm, 88, rfl⟩
abbrev main_c_16 : Ref sig .tc := ⟨.hbm, 89, rfl⟩
abbrev main_v47 : Ref sig .tc := ⟨.hbm, 90, rfl⟩
abbrev main_cst_17 : Ref sig .tc := ⟨.hbm, 91, rfl⟩
abbrev main_call4_v0 : Ref sig .tc := ⟨.hbm, 92, rfl⟩
abbrev main_v48 : Ref sig .tc := ⟨.hbm, 93, rfl⟩
abbrev main_v49 : Ref sig .tc := ⟨.hbm, 94, rfl⟩
abbrev main_c_18 : Ref sig .tc := ⟨.hbm, 95, rfl⟩
abbrev main_v50 : Ref sig .tc := ⟨.hbm, 96, rfl⟩
abbrev main_cst_19 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩

abbrev nD : Nat := 1
abbrev τ : Topo := Topo.v7x

variable {F : FTy → Type} [FloatOps F]

class Facts₀ : Prop where
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S524288 : S_.BroadcastsInDim S524288 (![] : Fin 0 → Fin S524288.rank)
  reducesTo_S524288_S_d0 : S524288.ReducesTo [0] S_
  natLt_1_32 : 1 < 32

variable [Facts₀]

class Facts : Prop extends Facts₀ where

variable [Facts]
-- ==== Proof.KernelPieces.lean ====
/-
  What the body leaves in its four one-number scratch buffers, and in the output row, in each of its three cases.

  The body keeps four running numbers. At the first of a core's 32 steps it resets each to zero and then adds the block's
  total to it; at every later step it adds the block's total to what the step before left; at the last step it also lays
  the four numbers in lanes 0 to 3 of the 128-lane output row. The run of the body found these contents as lists of stores;
  here each is read back as ONE payload of the body over the input blocks (and, after the first step, over what the step
  before left), for any float instance.
-/
import proofs.«178929_j33062658245027_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## Case A: a core's first step (reset, then add) -/

/-- Scratch 0 after a step of case A: zero plus the hard rows' negative scores of the block. -/
theorem scratchA0 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : cond0_0 i) (hc1 : ¬cond0_1 i) (x0 x1 x2 : Vec F S8192x128 .f32) :
    sout0_A_0 c i a2 h2 a3 h3 a4 h4 a5 h5 a6 h6 a7 h7 a8 h8 a9 h9 hc0 hc1 x0 x1 x2 = k0_pay13 (k0_pay10 x0 x2) (k0_pay11 x0 x1 x2) k0_pay4 := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 1 after a step of case A: zero plus the other rows' softplus terms of the block. -/
theorem scratchA1 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : cond0_0 i) (hc1 : ¬cond0_1 i) (x0 x1 x2 : Vec F S8192x128 .f32) :
    sout0_A_1 c i a2 h2 a3 h3 a4 h4 a5 h5 a6 h6 a7 h7 a8 h8 a9 h9 hc0 hc1 x0 x1 x2 = k0_pay14 (k0_pay9 x0 x1) (k0_pay10 x0 x2) (k0_pay12 x0 x1 x2) k0_pay5 := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 2 after a step of case A: zero plus the count of hard rows of the block. -/
theorem scratchA2 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : cond0_0 i) (hc1 : ¬cond0_1 i) (x0 x1 x2 : Vec F S8192x128 .f32) :
    sout0_A_2 c i a2 h2 a3 h3 a4 h4 a5 h5 a6 h6 a7 h7 a8 h8 a9 h9 hc0 hc1 x0 x1 x2 = k0_pay1 k0_pay6 (k0_pay15 (k0_pay11 x0 x1 x2)) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 3 after a step of case A: zero plus the count of the other rows of the block. -/
theorem scratchA3 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : cond0_0 i) (hc1 : ¬cond0_1 i) (x0 x1 x2 : Vec F S8192x128 .f32) :
    sout0_A_3 c i a2 h2 a3 h3 a4 h4 a5 h5 a6 h6 a7 h7 a8 h8 a9 h9 hc0 hc1 x0 x1 x2 = k0_pay2 (k0_pay12 x0 x1 x2) k0_pay7 := by
  unfold sout0_A_3
  rw [View.read_writes_eq_canon _ _ _ (scover0_A_3 c i a2 h2 a3 h3 a4 h4 a5 h5 a6 h6 a7 h7 a8 h8 a9 h9 hc0 hc1 x0 x1 x2)]
  unfold kernelRun0_A
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-! ## Case B: a middle step (add to what the step before left) -/

/-- Scratch 0 after a step of case B: what it held plus the hard rows' negative scores of the block. -/
theorem scratchB0 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : ¬cond0_1 i) (x0 x1 x2 : Vec F S8192x128 .f32) (xs0 xs1 xs2 xs3 : Vec F S1x1 .f32) :
    sout0_B_0 c i a2 h2 a3 h3 a4 h4 a5 h5 a6 h6 a7 h7 a8 h8 a9 h9 hc0 hc1 x0 x1 x2 xs0 xs1 xs2 xs3 = k0_pay13 (k0_pay10 x0 x2) (k0_pay11 x0 x1 x2) xs0 := by
  unfold sout0_B_0
  rw [View.read_writes_eq_canon _ _ _ (scover0_B_0 c i a2 h2 a3 h3 a4 h4 a5 h5 a6 h6 a7 h7 a8 h8 a9 h9 hc0 hc1 x0 x1 x2 xs0 xs1 xs2 xs3)]
  unfold kernelRun0_B
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 1 after a step of case B: what it held plus the other rows' softplus terms of the block. -/
theorem scratchB1 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : ¬cond0_1 i) (x0 x1 x2 : Vec F S8192x128 .f32) (xs0 xs1 xs2 xs3 : Vec F S1x1 .f32) :
    sout0_B_1 c i a2 h2 a3 h3 a4 h4 a5 h5 a6 h6 a7 h7 a8 h8 a9 h9 hc0 hc1 x0 x1 x2 xs0 xs1 xs2 xs3 = k0_pay14 (k0_pay9 x0 x1) (k0_pay10 x0 x2) (k0_pay12 x0 x1 x2) xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2 xs3)]
  unfold kernelRun0_B
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 2 after a step of case B: what it held plus the count of hard rows of the block. -/
theorem scratchB2 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : ¬cond0_1 i) (x0 x1 x2 : Vec F S8192x128 .f32) (xs0 xs1 xs2 xs3 : Vec F S1x1 .f32) :
    sout0_B_2 c i a2 h2 a3 h3 a4 h4 a5 h5 a6 h6 a7 h7 a8 h8 a9 h9 hc0 hc1 x0 x1 x2 xs0 xs1 xs2 xs3 = k0_pay1 xs2 (k0_pay15 (k0_pay11 x0 x1 x2)) := by
  unfold sout0_B_2
  rw [View.read_writes_eq_canon _ _ _ (scover0_B_2 c i a2 h2 a3 h3 a4 h4 a5 h5 a6 h6 a7 h7 a8 h8 a9 h9 hc0 hc1 x0 x1 x2 xs0 xs1 xs2 xs3)]
  unfold kernelRun0_B
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 3 after a step of case B: what it held plus the count of the other rows of the block. -/
theorem scratchB3 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : ¬cond0_1 i) (x0 x1 x2 : Vec F S8192x128 .f32) (xs0 xs1 xs2 xs3 : Vec F S1x1 .f32) :
    sout0_B_3 c i a2 h2 a3 h3 a4 h4 a5 h5 a6 h6 a7 h7 a8 h8 a9 h9 hc0 hc1 x0 x1 x2 xs0 xs1 xs2 xs3 = k0_pay2 (k0_pay12 x0 x1 x2) xs3 := by
  unfold sout0_B_3
  rw [View.read_writes_eq_canon _ _ _ (scover0_B_3 c i a2 h2 a3 h3 a4 h4 a5 h5 a6 h6 a7 h7 a8 h8 a9 h9 hc0 hc1 x0 x1 x2 xs0 xs1 xs2 xs3)]
  unfold kernelRun0_B
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-! ## Case C: a core's last step (add, then lay the four numbers in the output row) -/

/-- Scratch 0 after a step of case C: what it held plus the hard rows' negative scores of the block. -/
theorem scratchC0 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : cond0_1 i) (x0 x1 x2 : Vec F S8192x128 .f32) (xs0 xs1 xs2 xs3 : Vec F S1x1 .f32) :
    sout0_C_0 c i a2 h2 a3 h3 a4 h4 a5 h5 a6 h6 a7 h7 a8 h8 a9 h9 hc0 hc1 x0 x1 x2 xs0 xs1 xs2 xs3 = k0_pay13 (k0_pay10 x0 x2) (k0_pay11 x0 x1 x2) xs0 := by
  unfold sout0_C_0
  rw [View.read_writes_eq_canon _ _ _ (scover0_C_0 c i a2 h2 a3 h3 a4 h4 a5 h5 a6 h6 a7 h7 a8 h8 a9 h9 hc0 hc1 x0 x1 x2 xs0 xs1 xs2 xs3)]
  unfold kernelRun0_C
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 1 after a step of case C: what it held plus the other rows' softplus terms of the block. -/
theorem scratchC1 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : cond0_1 i) (x0 x1 x2 : Vec F S8192x128 .f32) (xs0 xs1 xs2 xs3 : Vec F S1x1 .f32) :
    sout0_C_1 c i a2 h2 a3 h3 a4 h4 a5 h5 a6 h6 a7 h7 a8 h8 a9 h9 hc0 hc1 x0 x1 x2 xs0 xs1 xs2 xs3 = k0_pay14 (k0_pay9 x0 x1) (k0_pay10 x0 x2) (k0_pay12 x0 x1 x2) xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2 xs3)]
  unfold kernelRun0_C
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 2 after a step of case C: what it held plus the count of hard rows of the block. -/
theorem scratchC2 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : cond0_1 i) (x0 x1 x2 : Vec F S8192x128 .f32) (xs0 xs1 xs2 xs3 : Vec F S1x1 .f32) :
    sout0_C_2 c i a2 h2 a3 h3 a4 h4 a5 h5 a6 h6 a7 h7 a8 h8 a9 h9 hc0 hc1 x0 x1 x2 xs0 xs1 xs2 xs3 = k0_pay1 xs2 (k0_pay15 (k0_pay11 x0 x1 x2)) := by
  unfold sout0_C_2
  rw [View.read_writes_eq_canon _ _ _ (scover0_C_2 c i a2 h2 a3 h3 a4 h4 a5 h5 a6 h6 a7 h7 a8 h8 a9 h9 hc0 hc1 x0 x1 x2 xs0 xs1 xs2 xs3)]
  unfold kernelRun0_C
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- Scratch 3 after a step of case C: what it held plus the count of the other rows of the block. -/
theorem scratchC3 (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : cond0_1 i) (x0 x1 x2 : Vec F S8192x128 .f32) (xs0 xs1 xs2 xs3 : Vec F S1x1 .f32) :
    sout0_C_3 c i a2 h2 a3 h3 a4 h4 a5 h5 a6 h6 a7 h7 a8 h8 a9 h9 hc0 hc1 x0 x1 x2 xs0 xs1 xs2 xs3 = k0_pay2 (k0_pay12 x0 x1 x2) xs3 := by
  unfold sout0_C_3
  rw [View.read_writes_eq_canon _ _ _ (scover0_C_3 c i a2 h2 a3 h3 a4 h4 a5 h5 a6 h6 a7 h7 a8 h8 a9 h9 hc0 hc1 x0 x1 x2 xs0 xs1 xs2 xs3)]
  unfold kernelRun0_C
  dsimp only
  sl_unfold_words
  first | rw [View.canon_cons_unit_zero (S := S1x1) hz] | rw [View.canon_unit_zero hz]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz]

/-- The output row after a core's last step: the four updated numbers laid in lanes 0 to 3. -/
theorem outputC (c : Dev nD) (i : grid0.Coords)
  (a2 : Memref sig .tc .vmem S8192x128 .f32) (h2 : a2.IsWhole) (a3 : Memref sig .tc .vmem S8192x128 .f32) (h3 : a3.IsWhole)
  (a4 : Memref sig .tc .vmem S8192x128 .f32) (h4 : a4.IsWhole) (a5 : Memref sig .tc .vmem S1x1x128 .f32) (h5 : a5.IsWhole)
  (a6 : Memref sig .tc .vmem S1x1 .f32) (h6 : a6.IsWhole) (a7 : Memref sig .tc .vmem S1x1 .f32) (h7 : a7.IsWhole)
  (a8 : Memref sig .tc .vmem S1x1 .f32) (h8 : a8.IsWhole) (a9 : Memref sig .tc .vmem S1x1 .f32) (h9 : a9.IsWhole)
  (hc0 : ¬cond0_0 i) (hc1 : cond0_1 i) (x0 x1 x2 : Vec F S8192x128 .f32) (xs0 xs1 xs2 xs3 : Vec F S1x1 .f32) :
    out0_C_3 c i a2 h2 a3 h3 a4 h4 a5 h5 a6 h6 a7 h7 a8 h8 a9 h9 hc0 hc1 x0 x1 x2 xs0 xs1 xs2 xs3
      = k0_pay3 (k0_pay13 (k0_pay10 x0 x2) (k0_pay11 x0 x1 x2) xs0) (k0_pay14 (k0_pay9 x0 x1) (k0_pay10 x0 x2) (k0_pay12 x0 x1 x2) xs1)
          (k0_pay1 xs2 (k0_pay15 (k0_pay11 x0 x1 x2))) (k0_pay2 (k0_pay12 x0 x1 x2) xs3) := by
  unfold out0_C_3
  rw [View.read_writes_eq_canon _ _ _ (cover0_C_3 c i a2 h2 a3 h3 a4 h4 a5 h5 a6 h6 a7 h7 a8 h8 a9 h9 hc0 hc1 x0 x1 x2 xs0 xs1 xs2 xs3)]
  unfold kernelRun0_C
  dsimp only
  sl_unfold_words
  rw [View.canon_unit_zero hz3]
  simp only [View.readCov_unit_zero (S := S1x1) _ hz, View.readAt_eq_ld, h2.read_unread, h3.read_unread, h4.read_unread,
    h6.read_unread, h7.read_unread, h8.read_unread, h9.read_unread, View.ld_unit_zero (S := S1x1) hz, View.ld_unit_zero (S := S8192x128) hz, View.ld_unit_zero (S := S1x1x128) hz3]

end Cert.KernelIdeal.Pieces

end
-- ==== Proof.LossSpec.lean ====
/-
  The quantity both programs compute, as ONE function of the three matrices.

  For a row index `r` write `a`, `p`, `n` for row `r` of the anchor, positive and negative matrices (128 entries each).
  A row's clamped length is `len x = max (sqrt (∑ₖ xₖ²)) ε`; the two scores of the row are the cosines
  `pos = (∑ₖ aₖ pₖ) / (len a · len p)` and `neg = (∑ₖ aₖ nₖ) / (len a · len n)`. The row is HARD when `neg > pos` or
  `neg > 0.8`. A hard row contributes `neg` to the first sum and `1` to the first count; any other row contributes
  `softplus ((neg − pos) / 0.1)` to the second sum and `1` to the second count. The result is
  `(S₂' + 1 · S₁') / max (C₁ + C₂) 1`, where `Sᵢ'` is `Sᵢ` unless its count is zero, and then zero.

  Everything is over the extended reals with the operations' exact meanings; the float words (ε, 0.8, 0.1, 1.0) are kept as
  the words they are, the same on both sides, and never evaluated here.
-/
import Idealize.ShloMosaic.PureOps.Ideal
import Idealize.ShloMosaic.Lib.ValueIdx

noncomputable section

namespace Cert.Loss

open Idealize.ShloMosaic Idealize.ShloMosaic.ValueIdx

/-- One row of a matrix: 128 extended reals. -/
abbrev Row : Type := Fin 128 → EReal

/-- A [524288, 128] matrix of extended reals. -/
abbrev Mat : Type := (⟨2, ![524288, 128]⟩ : Shape).Idx → EReal

/-- Row `r` of a matrix. -/
def row (X : Mat) (r : Fin 524288) : Row := fun k => X (ix2 r k)

/-- The clamp under the lengths: the float nearest 1e-12. -/
def eps : EReal := Ideal.ofBits .f32 0x2B8CBCCC#32
/-- The threshold on the negative score: the float nearest 0.8. -/
def thr : EReal := Ideal.ofBits .f32 0x3F4CCCCD#32
/-- The temperature: the float nearest 0.1. -/
def temp : EReal := Ideal.ofBits .f32 0x3DCCCCCD#32
/-- The float 1.0. -/
def one : EReal := Ideal.ofBits .f32 0x3F800000#32

/-- A row's length, clamped below by ε. -/
def len (x : Row) : EReal := max (Ideal.sqrt (∑ k, x k * x k)) eps

/-- The cosine of two rows: their dot product over the product of their clamped lengths. -/
def cosine (x y : Row) : EReal := Ideal.div (∑ k, x k * y k) (len x * len y)

/-- The cosine as a sum of products of entries each divided by its own row's clamped length. -/
def cosineOfUnit (x y : Row) : EReal := ∑ k, Ideal.div (x k) (len x) * Ideal.div (y k) (len y)

/-- A row is hard when its negative score exceeds its positive score or the threshold. -/
def hard (p n : EReal) : BitVec 1 := Ideal.cmp .ogt n p ||| Ideal.cmp .ogt n thr

/-- `log (1 + eˣ)` in its stable form `max x 0 + log1p (exp (−|x|))`, under the guard `x − 0 ≠ x − 0`, which never holds. -/
def softplus (z : EReal) : EReal :=
  Scalar.select (Ideal.cmp .one (z - 0) (z - 0)) (z + 0)
    (max z 0 + Ideal.log1p (Ideal.exp (0 - max (z - 0) (-(z - 0)))))

/-- What a row adds to the first sum. -/
def hardTerm (p n : EReal) : EReal := Scalar.select (hard p n) n 0

/-- What a row adds to the second sum. -/
def otherTerm (p n : EReal) : EReal :=
  Scalar.select (hard p n ^^^ 1#1) (softplus (Ideal.div (n - p) temp)) 0

/-- A one-bit flag as the real number 0 or 1 (widened to 32 bits, read signed). -/
def count (b : BitVec 1) : EReal := (((b.setWidth 32).toInt : ℝ) : EReal)

/-- The last step: each sum replaced by zero when its count is zero, added, divided by the total count clamped at 1. -/
def combine (hs os hc oc : EReal) : EReal :=
  Ideal.div (Scalar.select (Ideal.cmp .oeq oc 0) 0 os + one * Scalar.select (Ideal.cmp .oeq hc 0) 0 hs)
    (max (hc + oc) one)

/-- The positive score of row `r`. -/
def pos (A P : Mat) (r : Fin 524288) : EReal := cosine (row A r) (row P r)
/-- The negative score of row `r`. -/
def neg (A N : Mat) (r : Fin 524288) : EReal := cosine (row A r) (row N r)

/-- The four totals over all rows. -/
def hardSum (A P N : Mat) : EReal := ∑ r, hardTerm (pos A P r) (neg A N r)
def otherSum (A P N : Mat) : EReal := ∑ r, otherTerm (pos A P r) (neg A N r)
def hardCount (A P N : Mat) : EReal := ∑ r, count (hard (pos A P r) (neg A N r))
def otherCount (A P N : Mat) : EReal := ∑ r, count (hard (pos A P r) (neg A N r) ^^^ 1#1)

/-- The result. -/
def loss (A P N : Mat) : EReal :=
  combine (hardSum A P N) (otherSum A P N) (hardCount A P N) (otherCount A P N)

end Cert.Loss

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.LibColumnTotal.lean ====
/-
  The sum of a one-entry-per-row column along its FIRST axis, read at its one index, at any number of rows `n`.

  A column of `n` rows and one entry per row, summed along the rows from the zero word, leaves one number: the sum over
  the rows `r` of the entry `(r, u)`, `u` the unit coordinate. Recast from `[1]` to `[1, 1]` it is still that number.
-/
import Idealize.ShloMosaic.Lib.ValueIdx
import Idealize.ShloMosaic.Lib.Pipeline.Value
import Idealize.ShloMosaic.PureOps.Ideal.Laws

noncomputable section

namespace Cert.Lib.ColumnTotal

open Idealize.ShloMosaic Idealize.ShloMosaic.ValueIdx

/-- The sum of an `[n, 1]` array of extended reals along its first axis, from the zero word, reads at `u` the sum over the
    rows `r` of the entries `(r, u)`. -/
theorem total_apply {n : ℕ} (v : FVec Ideal ⟨2, ![n, 1]⟩ .f32) (h : (⟨2, ![n, 1]⟩ : Shape).Reduces [0] ⟨1, ![1]⟩)
    (hφ : FKind.Formats .f32) (hacc : (0x00000000#32 : BitVec 32) = FKind.add.neutral .f32 hφ) (u : Fin 1) :
    multiReduction .add [0] ⟨1, ![1]⟩ v 0x00000000#32 h hφ hacc (ix1 u) = ∑ r : Fin n, v (ix2 r u) :=
  (Ideal.multiReduction_add_single v 0x00000000#32 h hφ hacc (ix1 u)).trans
    (Finset.sum_congr rfl fun k _ => congrArg v (funext fun d => Fin.ext (by
      match d with
      | ⟨0, _⟩ => rfl
      | ⟨1, _⟩ => rfl)))

/-- A `[1]` array cast to `[1, 1]` reads, at its one index, the operand's one entry. -/
theorem shapeCast_unit_apply {α : Type} (x : (⟨1, ![1]⟩ : Shape).Idx → α)
    (h : (⟨1, ![1]⟩ : Shape).ShapeCasts ⟨2, ![1, 1]⟩) (i u : Fin 1) :
    shapeCast ⟨2, ![1, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.ColumnTotal

end
-- ==== Proof.KernelRows.lean ====
/-
  The body's arithmetic on one block of 8192 rows, read row by row over the extended reals.

  For the three input blocks (rows of the anchor, positive and negative matrices) the body forms, in each row, the three
  clamped lengths, the two cosines, the flag "hard" and its complement; then it adds to four running numbers the block's
  totals: the hard rows' negative scores, the other rows' softplus terms, and the two counts. Each of these is stated here
  at an explicit row `r`, in the vocabulary of the specification (`Cert.Loss`), and each running number's update as
  "what it held, plus a sum over the block's rows".
-/
import proofs.«178929_j33062658245027_2_alg».proof.Proof.Gen.KernelIdeal.Skeleton
import proofs.«178929_j33062658245027_2_alg».proof.Proof.LossSpec
import proofs.«178929_j33062658245027_2_alg».proof.Proof.LibColumnSum
import proofs.«178929_j33062658245027_2_alg».proof.Proof.LibColumnTotal
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx
open Cert.KernelIdeal Cert.KernelIdeal.Gen Cert.Loss
open Cert.Lib.ColumnSum Cert.Lib.ColumnTotal

/-- A block of 8192 rows of 128 extended reals. -/
abbrev Blk : Type := Vec Ideal S8192x128 .f32

/-- Row `r` of a block. -/
def brow (x : Blk) (r : Fin 8192) : Row := fun k => x (ix2 r k)

/-- The one index of a one-by-one array. -/
abbrev o : S1x1.Idx := ix2 (0 : Fin 1) (0 : Fin 1)

/-- A row's dot product as the body forms it: the lane sum of the products, kept as a one-entry column. -/
theorem rowdot (x y : Blk) (r : Fin 8192) (u : Fin 1) (h1 : S8192x128.Reduces [1] S8192) (h2 : S8192.ShapeCasts S8192x1)
    (hφ : FKind.Formats .f32) (hacc : (0x00000000#32 : BitVec 32) = FKind.add.neutral .f32 hφ) :
    shapeCast S8192x1 (multiReduction (F := Ideal) .add [1] S8192 (mulf x y) 0x00000000#32 h1 hφ hacc) h2 (ix2 r u)
      = ∑ k, brow x r k * brow y r k :=
  (shapeCast_column_apply _ h2 r u).trans (lane_sum_apply (mulf x y) h1 hφ hacc r)

/-- The clamped length of row `r`. -/
theorem length_apply (x : Blk) (r : Fin 8192) (u : Fin 1) : k0_pay8 (F := Ideal) x (ix2 r u) = len (brow x r) := by
  unfold k0_pay8
  exact congrArg (fun z => max (Ideal.sqrt z) eps) (rowdot x x r u _ _ _ _)

/-- The positive score of row `r`: the cosine of the anchor's and the positive's rows. -/
theorem pos_apply (x0 x1 : Blk) (r : Fin 8192) (u : Fin 1) :
    k0_pay9 (F := Ideal) x0 x1 (ix2 r u) = cosine (brow x0 r) (brow x1 r) := by
  unfold k0_pay9
  show Ideal.div _ (k0_pay8 (F := Ideal) x0 (ix2 r u) * max (Ideal.sqrt _) eps) = _
  rw [length_apply]
  exact congr (congrArg Ideal.div (rowdot x0 x1 r u _ _ _ _))
    (congrArg (fun z => len (brow x0 r) * max (Ideal.sqrt z) eps) (rowdot x1 x1 r u _ _ _ _))

/-- The negative score of row `r`: the cosine of the anchor's and the negative's rows. -/
theorem neg_apply (x0 x2 : Blk) (r : Fin 8192) (u : Fin 1) :
    k0_pay10 (F := Ideal) x0 x2 (ix2 r u) = cosine (brow x0 r) (brow x2 r) := by
  unfold k0_pay10
  show Ideal.div _ (k0_pay8 (F := Ideal) x0 (ix2 r u) * max (Ideal.sqrt _) eps) = _
  rw [length_apply]
  exact congr (congrArg Ideal.div (rowdot x0 x2 r u _ _ _ _))
    (congrArg (fun z => len (brow x0 r) * max (Ideal.sqrt z) eps) (rowdot x2 x2 r u _ _ _ _))

/-- Row `r`'s flag. -/
theorem hard_apply (x0 x1 x2 : Blk) (r : Fin 8192) (u : Fin 1) :
    k0_pay11 (F := Ideal) x0 x1 x2 (ix2 r u) = hard (cosine (brow x0 r) (brow x1 r)) (cosine (brow x0 r) (brow x2 r)) := by
  unfold k0_pay11
  show Ideal.cmp .ogt (k0_pay10 (F := Ideal) x0 x2 (ix2 r u)) (k0_pay9 (F := Ideal) x0 x1 (ix2 r u))
      ||| Ideal.cmp .ogt (k0_pay10 (F := Ideal) x0 x2 (ix2 r u)) thr = _
  rw [neg_apply, pos_apply]
  rfl

/-- Row `r`'s complementary flag. -/
theorem other_apply (x0 x1 x2 : Blk) (r : Fin 8192) (u : Fin 1) :
    k0_pay12 (F := Ideal) x0 x1 x2 (ix2 r u)
      = hard (cosine (brow x0 r) (brow x1 r)) (cosine (brow x0 r) (brow x2 r)) ^^^ 1#1 := by
  unfold k0_pay12
  show k0_pay11 (F := Ideal) x0 x1 x2 (ix2 r u) ^^^ 1#1 = _
  rw [hard_apply]

/-- `Cert.Loss.softplus` with its zero spelled as a value `w`. -/
def softplusAt (w z : EReal) : EReal :=
  Scalar.select (Ideal.cmp .one (z - w) (z - w)) (z + w) (max z w + Ideal.log1p (Ideal.exp (w - max (z - w) (-(z - w)))))

theorem softplusAt_zero (z : EReal) : softplusAt (Ideal.ofBits .f32 0x00000000#32) z = softplus z := by
  unfold softplusAt softplus
  rw [Ideal.ofBits_zero_f32]

/-- A block's total along its rows, kept as a one-by-one array, read at its one index. -/
theorem total (v : FVec Ideal S8192x1 .f32) (h1 : S8192x1.Reduces [0] S1) (h2 : S1.ShapeCasts S1x1)
    (hφ : FKind.Formats .f32) (hacc : (0x00000000#32 : BitVec 32) = FKind.add.neutral .f32 hφ) :
    shapeCast S1x1 (multiReduction (F := Ideal) .add [0] S1 v 0x00000000#32 h1 hφ hacc) h2 o = ∑ r : Fin 8192, v (ix2 r (0 : Fin 1)) :=
  (shapeCast_unit_apply _ h2 0 0).trans (total_apply v h1 hφ hacc 0)

/-- The zero a running number is reset to. -/
theorem reset4 : k0_pay4 (F := Ideal) o = 0 := Ideal.ofBits_zero_f32
theorem reset5 : k0_pay5 (F := Ideal) o = 0 := Ideal.ofBits_zero_f32
theorem reset6 : k0_pay6 (F := Ideal) o = 0 := Ideal.ofBits_zero_f32
theorem reset7 : k0_pay7 (F := Ideal) o = 0 := Ideal.ofBits_zero_f32

/-- The first running number's update: plus the hard rows' negative scores. -/
theorem hardSum_step (v33 : FVec Ideal S8192x1 .f32) (v37 : IVec S8192x1 1) (s : Vec Ideal S1x1 .f32) :
    k0_pay13 (F := Ideal) v33 v37 s o
      = s o + ∑ r : Fin 8192, Scalar.select (v37 (ix2 r (0 : Fin 1))) (v33 (ix2 r (0 : Fin 1))) (Ideal.ofBits .f32 0x00000000#32) := by
  unfold k0_pay13
  refine (congrFun (shapeCast_self _ _) o).trans ?_
  exact congrArg (s o + ·) (total _ _ _ _ _)

/-- The second running number's update: plus the other rows' softplus terms. -/
theorem otherSum_step (v31 v33 : FVec Ideal S8192x1 .f32) (v38 : IVec S8192x1 1) (s : Vec Ideal S1x1 .f32) :
    k0_pay14 (F := Ideal) v31 v33 v38 s o
      = s o + ∑ r : Fin 8192, Scalar.select (v38 (ix2 r (0 : Fin 1)))
          (softplusAt (Ideal.ofBits .f32 0x00000000#32) (Ideal.div (v33 (ix2 r (0 : Fin 1)) - v31 (ix2 r (0 : Fin 1))) temp)) (Ideal.ofBits .f32 0x00000000#32) := by
  unfold k0_pay14
  refine (congrFun (shapeCast_self _ _) o).trans ?_
  exact congrArg (s o + ·) (total _ _ _ _ _)

/-- A block's count of a flag. -/
theorem count_total (v37 : IVec S8192x1 1) :
    k0_pay15 (F := Ideal) v37 o = ∑ r : Fin 8192, count (v37 (ix2 r (0 : Fin 1))) := by
  unfold k0_pay15
  exact total _ _ _ _ _

/-- The third running number's update. -/
theorem hardCount_step (s t : Vec Ideal S1x1 .f32) : k0_pay1 (F := Ideal) s t o = s o + t o := by
  unfold k0_pay1
  exact congrFun (shapeCast_self _ _) o

/-- The fourth running number's update: plus the block's count of the complementary flag. -/
theorem otherCount_step (v38 : IVec S8192x1 1) (s : Vec Ideal S1x1 .f32) :
    k0_pay2 (F := Ideal) v38 s o = s o + ∑ r : Fin 8192, count (v38 (ix2 r (0 : Fin 1))) := by
  unfold k0_pay2
  refine (congrFun (shapeCast_self _ _) o).trans ?_
  exact congrArg (s o + ·) (total _ _ _ _ _)

/-! ## One block's four totals, and the four updates in the specification's words -/

/-- The positive and negative scores of row `r` of a block triple. -/
abbrev bpos (x0 x1 : Blk) (r : Fin 8192) : EReal := cosine (brow x0 r) (brow x1 r)
abbrev bneg (x0 x2 : Blk) (r : Fin 8192) : EReal := cosine (brow x0 r) (brow x2 r)

def blockHardSum (x0 x1 x2 : Blk) : EReal := ∑ r : Fin 8192, hardTerm (bpos x0 x1 r) (bneg x0 x2 r)
def blockOtherSum (x0 x1 x2 : Blk) : EReal := ∑ r : Fin 8192, otherTerm (bpos x0 x1 r) (bneg x0 x2 r)
def blockHardCount (x0 x1 x2 : Blk) : EReal := ∑ r : Fin 8192, count (hard (bpos x0 x1 r) (bneg x0 x2 r))
def blockOtherCount (x0 x1 x2 : Blk) : EReal := ∑ r : Fin 8192, count (hard (bpos x0 x1 r) (bneg x0 x2 r) ^^^ 1#1)

theorem step0 (x0 x1 x2 : Blk) (s : Vec Ideal S1x1 .f32) :
    k0_pay13 (F := Ideal) (k0_pay10 x0 x2) (k0_pay11 x0 x1 x2) s o = s o + blockHardSum x0 x1 x2 := by
  rw [hardSum_step]
  refine congrArg (s o + ·) (Finset.sum_congr rfl fun r _ => ?_)
  rw [neg_apply, hard_apply, Ideal.ofBits_zero_f32]
  rfl

theorem step1 (x0 x1 x2 : Blk) (s : Vec Ideal S1x1 .f32) :
    k0_pay14 (F := Ideal) (k0_pay9 x0 x1) (k0_pay10 x0 x2) (k0_pay12 x0 x1 x2) s o = s o + blockOtherSum x0 x1 x2 := by
  rw [otherSum_step]
  refine congrArg (s o + ·) (Finset.sum_congr rfl fun r _ => ?_)
  rw [neg_apply, pos_apply, other_apply, softplusAt_zero, Ideal.ofBits_zero_f32]
  rfl

theorem step2 (x0 x1 x2 : Blk) (s : Vec Ideal S1x1 .f32) :
    k0_pay1 (F := Ideal) s (k0_pay15 (k0_pay11 x0 x1 x2)) o = s o + blockHardCount x0 x1 x2 := by
  rw [hardCount_step, count_total]
  refine congrArg (s o + ·) (Finset.sum_congr rfl fun r _ => ?_)
  rw [hard_apply]

theorem step3 (x0 x1 x2 : Blk) (s : Vec Ideal S1x1 .f32) :
    k0_pay2 (F := Ideal) (k0_pay12 x0 x1 x2) s o = s o + blockOtherCount x0 x1 x2 := by
  rw [otherCount_step]
  refine congrArg (s o + ·) (Finset.sum_congr rfl fun r _ => ?_)
  rw [other_apply]

end Cert.KernelIdeal.Rows

end
-- ==== Proof.KernelAccum.lean ====
/-
  The four running numbers after each grid step, in closed form.

  The grid has 64 steps: core `c'` (0 or 1) takes steps `32 c'` to `32 c' + 31`, and step `t` works on rows
  `8192 t` to `8192 t + 8191` of the three matrices. Write `T_j t` for step `t`'s block total of kind `j` (the hard rows'
  negative scores, the other rows' softplus terms, the two counts). After step `n` running number `j` holds the sum of
  `T_j t` over the steps `t` of the SAME core up to `n`, that is over `32 (n / 32) ≤ t ≤ n`: the first step of a core
  starts from zero, each later step adds its own total to what the step before left. The proof is an induction on the step
  over the three cases of the body; no step is enumerated.
-/
import proofs.«178929_j33062658245027_2_alg».proof.Proof.KernelPieces
import proofs.«178929_j33062658245027_2_alg».proof.Proof.KernelRows

set_option maxRecDepth 16384

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Rows Cert.KernelIdeal.Pieces Cert.Loss

variable (m : (ℓ : Loc nD τ sig) → Buf (Elt Ideal) ℓ)

/-! ## One step's four block totals -/

def tot0 (c : Dev nD) (t : Fin cfg0.N) : EReal := blockHardSum (iblk m c 0 t) (iblk m c 1 t) (iblk m c 2 t)
def tot1 (c : Dev nD) (t : Fin cfg0.N) : EReal := blockOtherSum (iblk m c 0 t) (iblk m c 1 t) (iblk m c 2 t)
def tot2 (c : Dev nD) (t : Fin cfg0.N) : EReal := blockHardCount (iblk m c 0 t) (iblk m c 1 t) (iblk m c 2 t)
def tot3 (c : Dev nD) (t : Fin cfg0.N) : EReal := blockOtherCount (iblk m c 0 t) (iblk m c 1 t) (iblk m c 2 t)

/-! ## A core's running sum of per-step totals -/

/-- A per-step quantity as a function of the step's number, zero past the grid. -/
def ext (T : Fin cfg0.N → EReal) (n : ℕ) : EReal := if h : n < cfg0.N then T ⟨n, h⟩ else 0

/-- The sum of a per-step quantity over the steps of step `n`'s core up to `n`. -/
def run (T : Fin cfg0.N → EReal) (n : ℕ) : EReal := ∑ t ∈ Finset.Icc (32 * (n / 32)) n, ext T t

theorem run_first (T : Fin cfg0.N → EReal) (n : ℕ) (hn : n < cfg0.N) (h0 : n % 32 = 0) : run T n = T ⟨n, hn⟩ := by
  unfold run
  have e : 32 * (n / 32) = n := by omega
  rw [e, Finset.Icc_self, Finset.sum_singleton]
  unfold ext
  rw [dif_pos hn]

theorem run_next (T : Fin cfg0.N → EReal) (n : ℕ) (hn : n < cfg0.N) (h0 : ¬n % 32 = 0) :
    run T n = run T (n - 1) + T ⟨n, hn⟩ := by
  obtain ⟨k, rfl⟩ : ∃ k, n = k + 1 := ⟨n - 1, by omega⟩
  unfold run
  have e : 32 * ((k + 1) / 32) = 32 * (k / 32) := by omega
  rw [e, Nat.add_sub_cancel, Finset.sum_Icc_succ_top (by omega)]
  refine congrArg (_ + ·) ?_
  unfold ext
  rw [dif_pos hn]

/-! ## The three cases of the body, step by step -/

/-- A core's first step leaves each running number at the step's own total. -/
theorem firstStep (c : Dev nD) (t : Fin cfg0.N) (h0 : t.val % 32 = 0) (h1 : ¬t.val % 32 = 31) :
    (outsAt0 m c t.val t.isLt).2.1 o = tot0 m c t ∧ (outsAt0 m c t.val t.isLt).2.2.1 o = tot1 m c t
      ∧ (outsAt0 m c t.val t.isLt).2.2.2.1 o = tot2 m c t ∧ (outsAt0 m c t.val t.isLt).2.2.2.2 o = tot3 m c t := by
  rw [outsAt0_A m c t h0 h1]
  dsimp only
  refine ⟨?_, ?_, ?_, ?_⟩
  · refine (congrFun (scratchA0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) o).trans ?_
    rw [step0, reset4, zero_add]
    rfl
  · refine (congrFun (scratchA1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) o).trans ?_
    rw [step1, reset5, zero_add]
    rfl
  · refine (congrFun (scratchA2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) o).trans ?_
    rw [step2, reset6, zero_add]
    rfl
  · refine (congrFun (scratchA3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t)) o).trans ?_
    rw [step3, reset7, zero_add]
    rfl

/-- A middle step adds its own totals to what the step before left. -/
theorem middleStep (c : Dev nD) (t : Fin cfg0.N) (h0 : ¬t.val % 32 = 0) (h1 : ¬t.val % 32 = 31) :
    (outsAt0 m c t.val t.isLt).2.1 o = (outsAt0 m c (t.val - 1) (Nat.lt_of_le_of_lt (Nat.sub_le _ _) t.isLt)).2.1 o + tot0 m c t
      ∧ (outsAt0 m c t.val t.isLt).2.2.1 o = (outsAt0 m c (t.val - 1) (Nat.lt_of_le_of_lt (Nat.sub_le _ _) t.isLt)).2.2.1 o + tot1 m c t
      ∧ (outsAt0 m c t.val t.isLt).2.2.2.1 o = (outsAt0 m c (t.val - 1) (Nat.lt_of_le_of_lt (Nat.sub_le _ _) t.isLt)).2.2.2.1 o + tot2 m c t
      ∧ (outsAt0 m c t.val t.isLt).2.2.2.2 o = (outsAt0 m c (t.val - 1) (Nat.lt_of_le_of_lt (Nat.sub_le _ _) t.isLt)).2.2.2.2 o + tot3 m c t := by
  rw [outsAt0_B m c t h0 h1]
  dsimp only
  refine ⟨?_, ?_, ?_, ?_⟩
  · refine (congrFun (scratchB0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step0]
    rfl
  · refine (congrFun (scratchB1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step1]
    rfl
  · refine (congrFun (scratchB2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step2]
    rfl
  · refine (congrFun (scratchB3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step3]
    rfl

/-- A core's last step adds its own totals to what the step before left. -/
theorem lastStep (c : Dev nD) (t : Fin cfg0.N) (h0 : ¬t.val % 32 = 0) (h1 : t.val % 32 = 31) :
    (outsAt0 m c t.val t.isLt).2.1 o = (outsAt0 m c (t.val - 1) (Nat.lt_of_le_of_lt (Nat.sub_le _ _) t.isLt)).2.1 o + tot0 m c t
      ∧ (outsAt0 m c t.val t.isLt).2.2.1 o = (outsAt0 m c (t.val - 1) (Nat.lt_of_le_of_lt (Nat.sub_le _ _) t.isLt)).2.2.1 o + tot1 m c t
      ∧ (outsAt0 m c t.val t.isLt).2.2.2.1 o = (outsAt0 m c (t.val - 1) (Nat.lt_of_le_of_lt (Nat.sub_le _ _) t.isLt)).2.2.2.1 o + tot2 m c t
      ∧ (outsAt0 m c t.val t.isLt).2.2.2.2 o = (outsAt0 m c (t.val - 1) (Nat.lt_of_le_of_lt (Nat.sub_le _ _) t.isLt)).2.2.2.2 o + tot3 m c t := by
  rw [outsAt0_C m c t h0 h1]
  dsimp only
  refine ⟨?_, ?_, ?_, ?_⟩
  · refine (congrFun (scratchC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step0]
    rfl
  · refine (congrFun (scratchC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step1]
    rfl
  · refine (congrFun (scratchC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step2]
    rfl
  · refine (congrFun (scratchC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) o).trans ?_
    rw [step3]
    rfl

/-- At a core's last step the output row is the four numbers the step leaves, laid in lanes 0 to 3. -/
theorem lastRow (c : Dev nD) (t : Fin cfg0.N) (h0 : ¬t.val % 32 = 0) (h1 : t.val % 32 = 31) :
    (outsAt0 m c t.val t.isLt).1 = k0_pay3 (F := Ideal) (outsAt0 m c t.val t.isLt).2.1 (outsAt0 m c t.val t.isLt).2.2.1
      (outsAt0 m c t.val t.isLt).2.2.2.1 (outsAt0 m c t.val t.isLt).2.2.2.2 := by
  rw [outsAt0_C m c t h0 h1]
  dsimp only
  rw [outputC (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    scratchC0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    scratchC1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    scratchC2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    scratchC3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]

/-! ## The closed form -/

/-- After step `n` each running number is its core's sum of the per-step totals up to `n`. -/
theorem running (c : Dev nD) (n : ℕ) (h : n < cfg0.N) :
    (outsAt0 m c n h).2.1 o = run (tot0 m c) n ∧ (outsAt0 m c n h).2.2.1 o = run (tot1 m c) n
      ∧ (outsAt0 m c n h).2.2.2.1 o = run (tot2 m c) n ∧ (outsAt0 m c n h).2.2.2.2 o = run (tot3 m c) n := by
  induction n using Nat.strong_induction_on with
  | _ n ih =>
    by_cases h0 : n % 32 = 0
    · have h1 : ¬n % 32 = 31 := by omega
      obtain ⟨e0, e1, e2, e3⟩ := firstStep m c ⟨n, h⟩ h0 h1
      exact ⟨e0.trans (run_first _ n h h0).symm, e1.trans (run_first _ n h h0).symm,
        e2.trans (run_first _ n h h0).symm, e3.trans (run_first _ n h h0).symm⟩
    · have hp : n - 1 < cfg0.N := Nat.lt_of_le_of_lt (Nat.sub_le _ _) h
      obtain ⟨p0, p1, p2, p3⟩ := ih (n - 1) (by omega) hp
      have key : ∀ (T : Fin cfg0.N → EReal) (x y : EReal), y = run T (n - 1) → x = y + T ⟨n, h⟩ → x = run T n :=
        fun T x y hy hx => by rw [run_next T n h h0, ← hy]; exact hx
      by_cases h1 : n % 32 = 31
      · obtain ⟨e0, e1, e2, e3⟩ := lastStep m c ⟨n, h⟩ h0 h1
        exact ⟨key _ _ _ p0 e0, key _ _ _ p1 e1, key _ _ _ p2 e2, key _ _ _ p3 e3⟩
      · obtain ⟨e0, e1, e2, e3⟩ := middleStep m c ⟨n, h⟩ h0 h1
        exact ⟨key _ _ _ p0 e0, key _ _ _ p1 e1, key _ _ _ p2 e2, key _ _ _ p3 e3⟩

end Cert.KernelIdeal.Accum

end
-- ==== Proof.KernelLanes.lean ====
/-
  The output row, lane by lane.

  At a core's last step the body lays its four running numbers `s₀ … s₃` in a row of 128 lanes: lane `l` holds
  `[l = 0] s₀ + [l = 1] s₁ + [l = 2] s₂ + [l = 3] s₃`, a bracket being its number when the lane matches and zero otherwise.
  Only lanes 0 to 3 are read afterwards; lane `j` of them holds `s_j`.
-/
import proofs.«178929_j33062658245027_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Lanes

open Idealize.ShloMosaic Idealize.ShloMosaic.ValueIdx
open Cert.KernelIdeal Cert.KernelIdeal.Gen

/-- The one index of a one-by-one array. -/
abbrev o : S1x1.Idx := ix2 (0 : Fin 1) (0 : Fin 1)

/-- A one-by-one array stretched over 128 lanes reads its one number in every lane. -/
theorem stretch_apply (s : Vec Ideal S1x1 .f32) (h : S1x1.Broadcasts S1x128) (l : Fin 128) :
    broadcastTo S1x128 s h (ix2 (0 : Fin 1) l) = s o :=
  broadcastTo_apply s h _ o (fun a => by
    match a with
    | ⟨0, _⟩ => rfl
    | ⟨1, _⟩ => rfl)

/-- The zero word. -/
abbrev Z : EReal := Ideal.ofBits .f32 0x00000000#32

/-- Lane `l` of the row: each number where its lane matches, the zero word elsewhere, added. -/
theorem row_apply (s0 s1 s2 s3 : Vec Ideal S1x1 .f32) (l : Fin 128) :
    k0_pay3 (F := Ideal) s0 s1 s2 s3 (ix3 (0 : Fin 1) (0 : Fin 1) l)
      = Scalar.select (IntOp.cmpi .eq (BitVec.ofNat 32 l.val) 0#32) (s0 o) Z
        + Scalar.select (IntOp.cmpi .eq (BitVec.ofNat 32 l.val) 1#32) (s1 o) Z
        + Scalar.select (IntOp.cmpi .eq (BitVec.ofNat 32 l.val) 2#32) (s2 o) Z
        + Scalar.select (IntOp.cmpi .eq (BitVec.ofNat 32 l.val) 3#32) (s3 o) Z := by
  unfold k0_pay3
  refine (shapeCast_apply _ _ (ix3 (0 : Fin 1) (0 : Fin 1) l) (ix2 (0 : Fin 1) l) (by
    rw [Shape.rowMajor_val_two, Shape.rowMajor_val_three]; rfl)).trans ?_
  simp only [shapeCast_self]
  show Scalar.select (IntOp.cmpi .eq (iota .tc S1x128 32 [1] _ (ix2 (0 : Fin 1) l)) 0#32) (broadcastTo S1x128 s0 _ (ix2 (0 : Fin 1) l)) Z
        + Scalar.select (IntOp.cmpi .eq (iota .tc S1x128 32 [1] _ (ix2 (0 : Fin 1) l)) 1#32) (broadcastTo S1x128 s1 _ (ix2 (0 : Fin 1) l)) Z
        + Scalar.select (IntOp.cmpi .eq (iota .tc S1x128 32 [1] _ (ix2 (0 : Fin 1) l)) 2#32) (broadcastTo S1x128 s2 _ (ix2 (0 : Fin 1) l)) Z
        + Scalar.select (IntOp.cmpi .eq (iota .tc S1x128 32 [1] _ (ix2 (0 : Fin 1) l)) 3#32) (broadcastTo S1x128 s3 _ (ix2 (0 : Fin 1) l)) Z = _
  rw [iota_single_apply, stretch_apply, stretch_apply, stretch_apply, stretch_apply]

theorem lane0 (s0 s1 s2 s3 : Vec Ideal S1x1 .f32) :
    k0_pay3 (F := Ideal) s0 s1 s2 s3 (ix3 (0 : Fin 1) (0 : Fin 1) (0 : Fin 128)) = s0 o := by
  rw [row_apply]
  simp [Scalar.select, IntOp.cmpi, Ideal.ofBits_zero_f32]

theorem lane1 (s0 s1 s2 s3 : Vec Ideal S1x1 .f32) :
    k0_pay3 (F := Ideal) s0 s1 s2 s3 (ix3 (0 : Fin 1) (0 : Fin 1) (1 : Fin 128)) = s1 o := by
  rw [row_apply]
  simp [Scalar.select, IntOp.cmpi, Ideal.ofBits_zero_f32]

theorem lane2 (s0 s1 s2 s3 : Vec Ideal S1x1 .f32) :
    k0_pay3 (F := Ideal) s0 s1 s2 s3 (ix3 (0 : Fin 1) (0 : Fin 1) (2 : Fin 128)) = s2 o := by
  rw [row_apply]
  simp [Scalar.select, IntOp.cmpi, Ideal.ofBits_zero_f32]

theorem lane3 (s0 s1 s2 s3 : Vec Ideal S1x1 .f32) :
    k0_pay3 (F := Ideal) s0 s1 s2 s3 (ix3 (0 : Fin 1) (0 : Fin 1) (3 : Fin 128)) = s3 o := by
  rw [row_apply]
  simp [Scalar.select, IntOp.cmpi, Ideal.ofBits_zero_f32]

end Cert.KernelIdeal.Lanes

end
-- ==== Proof.KernelArray.lean ====
/-
  The output array after the run: row `q` (of two) is what core `q` laid down at its last step.

  The output window's block at step `t` is row `t / 32` of the [2, 1, 128] array, and it is written back only at a core's
  last step (`t ≡ 31` mod 32). So the array ends with row `q` holding the row the body formed at step `32 q + 31`: lanes
  0 to 3 of it are core `q`'s four running numbers after its 32 steps, that is the sums of the per-step totals over the
  steps `32 q … 32 q + 31`.
-/
import proofs.«178929_j33062658245027_2_alg».proof.Proof.KernelAccum
import proofs.«178929_j33062658245027_2_alg».proof.Proof.KernelLanes
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.OutArray

open Cert.KernelIdeal Cert.KernelIdeal.Gen Cert.KernelIdeal.Accum Cert.KernelIdeal.Lanes

variable (m : (ℓ : Loc nD τ sig) → Buf (Elt Ideal) ℓ)

/-- The output window's block index at step `t`: row `t / 32`, the other two coordinates zero. Decided over the grid. -/
theorem blockIndex : ∀ t : Fin cfg0.N, win0_3.index t (0 : Fin 3) = t.val / 32 ∧ win0_3.index t (1 : Fin 3) = 0
    ∧ win0_3.index t (2 : Fin 3) = 0 :=
  (by decide +kernel : ∀ t : Fin grid0.N, _)

/-- The row core `q` lays down at its last step (zero for a `q` past the grid). -/
def coreRow (c : Dev nD) (q : ℕ) : Vec Ideal S1x1x128 .f32 :=
  if h : 32 * q + 31 < cfg0.N then (outsAt0 m c (32 * q + 31) h).1 else fun _ => 0

theorem coreRow_eq (c : Dev nD) (q n : ℕ) (h : n < cfg0.N) (e : 32 * q + 31 = n) :
    coreRow m c q = (outsAt0 m c n h).1 := by
  subst e
  unfold coreRow
  rw [dif_pos h]

/-- The output array: row `q` is core `q`'s row. -/
def outArr (c : Dev nD) : S2x1x128.Idx → EReal :=
  fun i => coreRow m c (i 0).val (ix3 (0 : Fin 1) (0 : Fin 1) (⟨(i 2).val, (i 2).isLt⟩ : Fin 128))

/-- What a core's last step writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h31 : t.val % 32 = 31 := (flush0_3 t).mp hf
  have hN : cfg0.N = 64 := N_0
  have htl : t.val < 64 := hN ▸ t.isLt
  obtain ⟨i0, i1, i2⟩ := blockIndex t
  show (cfg0.win 3).cut (grid0.coords t) ((dats m 0 c).after 3 t) = _
  rw [after0_3]
  funext j
  have j0 : (j 0).val < 1 := (j 0).isLt
  have j1 : (j 1).val < 1 := (j 1).isLt
  have j2 : (j 2).val < 128 := (j 2).isLt
  have hemb : ((cfg0.win 3).blk t).view.emb j
      = ix3 (⟨t.val / 32, by omega⟩ : Fin 2) (0 : Fin 1) (⟨(j 2).val, j2⟩ : Fin 128) := by
    funext a; apply Fin.ext
    match a with
    | ⟨0, _⟩ => show win0_3.index t (0 : Fin 3) * 1 + 1 * (j 0).val = t.val / 32; omega
    | ⟨1, _⟩ => show win0_3.index t (1 : Fin 3) * 1 + 1 * (j 1).val = 0; omega
    | ⟨2, _⟩ => show win0_3.index t (2 : Fin 3) * 128 + 1 * (j 2).val = (j 2).val; omega
  show (outsAt0 m c t.val t.isLt).1 j = outArr m c (((cfg0.win 3).blk t).view.emb j)
  rw [hemb]
  show _ = coreRow m c (t.val / 32) (ix3 (0 : Fin 1) (0 : Fin 1) (⟨(j 2).val, j2⟩ : Fin 128))
  rw [coreRow_eq m c (t.val / 32) t.val t.isLt (by omega)]
  refine congrArg (outsAt0 m c t.val t.isLt).1 (funext fun a => Fin.ext ?_)
  match a with
  | ⟨0, _⟩ => show (j 0).val = 0; omega
  | ⟨1, _⟩ => show (j 1).val = 0; omega
  | ⟨2, _⟩ => rfl

/-- An index of the array is in step `t`'s block iff each coordinate is in the block's range on its axis. -/
theorem mem_blk (t : Fin cfg0.N) (i : S2x1x128.Idx) :
    i ∈ ((cfg0.win 3).blk t).view.set ↔ ∀ a : Fin 3, win0_3.index t a * S1x1x128.size a ≤ (i a).val
      ∧ (i a).val < win0_3.index t a * S1x1x128.size a + S1x1x128.size a := by
  show i ∈ ((View.whole main_v0).slice (win0_3.rect t)).set ↔ _
  rw [View.set_slice_whole, Rect.mem_set_unit]
  exact Iff.rfl

/-- Every index of the array is in the block a core's last step writes back. -/
theorem cover (i : S2x1x128.Idx) :
    ∃ t : Fin cfg0.N, (cfg0.win 3).flush t = true ∧ i ∈ ((cfg0.win 3).blk t).view.set := by
  have hN : cfg0.N = 64 := N_0
  have h0 : (i 0).val < 2 := (i 0).isLt
  have h1 : (i 1).val < 1 := (i 1).isLt
  have h2 : (i 2).val < 128 := (i 2).isLt
  have ht : 32 * (i 0).val + 31 < cfg0.N := by omega
  obtain ⟨e0, e1, e2⟩ := blockIndex ⟨32 * (i 0).val + 31, ht⟩
  have e0' : win0_3.index ⟨32 * (i 0).val + 31, ht⟩ (0 : Fin 3) = (i 0).val := by rw [e0]; show (32 * (i 0).val + 31) / 32 = _; omega
  refine ⟨⟨32 * (i 0).val + 31, ht⟩, (flush0_3 _).mpr (by show (32 * (i 0).val + 31) % 32 = 31; omega), ?_⟩
  rw [mem_blk]
  intro a
  match a with
  | ⟨0, _⟩ =>
    show win0_3.index ⟨32 * (i 0).val + 31, ht⟩ (0 : Fin 3) * 1 ≤ (i 0).val
      ∧ (i 0).val < win0_3.index ⟨32 * (i 0).val + 31, ht⟩ (0 : Fin 3) * 1 + 1
    omega
  | ⟨1, _⟩ =>
    show win0_3.index ⟨32 * (i 0).val + 31, ht⟩ (1 : Fin 3) * 1 ≤ (i 1).val
      ∧ (i 1).val < win0_3.index ⟨32 * (i 0).val + 31, ht⟩ (1 : Fin 3) * 1 + 1
    omega
  | ⟨2, _⟩ =>
    show win0_3.index ⟨32 * (i 0).val + 31, ht⟩ (2 : Fin 3) * 128 ≤ (i 2).val
      ∧ (i 2).val < win0_3.index ⟨32 * (i 0).val + 31, ht⟩ (2 : Fin 3) * 128 + 128
    omega

/-- So the output array ends holding `outArr`. -/
theorem final (c : Dev nD) : (dats m 0 c).arrAt 3 cfg0.N = outArr m c :=
  (dats m 0 c).arrAt_eq_of_cover 3 (outArr m c) (flushed_eq m c) cover

/-- Lanes 0 to 3 of row `q`: core `q`'s sums of the four per-step totals over its 32 steps. -/
theorem lanes (c : Dev nD) (q : Fin 2) :
    outArr m c (ix3 q (0 : Fin 1) (0 : Fin 128)) = run (tot0 m c) (32 * q.val + 31)
      ∧ outArr m c (ix3 q (0 : Fin 1) (1 : Fin 128)) = run (tot1 m c) (32 * q.val + 31)
      ∧ outArr m c (ix3 q (0 : Fin 1) (2 : Fin 128)) = run (tot2 m c) (32 * q.val + 31)
      ∧ outArr m c (ix3 q (0 : Fin 1) (3 : Fin 128)) = run (tot3 m c) (32 * q.val + 31) := by
  have hN : cfg0.N = 64 := N_0
  have hq : q.val < 2 := q.isLt
  have ht : 32 * q.val + 31 < cfg0.N := by omega
  have hr := lastRow m c ⟨32 * q.val + 31, ht⟩ (by show ¬(32 * q.val + 31) % 32 = 0; omega) (by show (32 * q.val + 31) % 32 = 31; omega)
  obtain ⟨r0, r1, r2, r3⟩ := running m c (32 * q.val + 31) ht
  have hrow : coreRow m c q.val = (outsAt0 m c (32 * q.val + 31) ht).1 := coreRow_eq m c q.val _ ht rfl
  refine ⟨?_, ?_, ?_, ?_⟩
  · show coreRow m c q.val (ix3 (0 : Fin 1) (0 : Fin 1) (0 : Fin 128)) = _
    rw [hrow, hr, lane0]; exact r0
  · show coreRow m c q.val (ix3 (0 : Fin 1) (0 : Fin 1) (1 : Fin 128)) = _
    rw [hrow, hr, lane1]; exact r1
  · show coreRow m c q.val (ix3 (0 : Fin 1) (0 : Fin 1) (2 : Fin 128)) = _
    rw [hrow, hr, lane2]; exact r2
  · show coreRow m c q.val (ix3 (0 : Fin 1) (0 : Fin 1) (3 : Fin 128)) = _
    rw [hrow, hr, lane3]; exact r3

end Cert.KernelIdeal.OutArray

end
-- ==== Proof.LibIndexSums.lean ====
/-
  Sums over the indices of a vector and of a one-entry-per-row column, as sums over the row coordinate.

  An index of an `[n]` array is its one coordinate, and an index of an `[n, 1]` array is its row coordinate beside the
  only column coordinate `0`; so a sum over either index set is the sum over `a : Fin n` of the summand at `a`, resp.
  at `(a, 0)`.
-/
import Idealize.ShloMosaic.Lib.ValueIdx

noncomputable section

namespace Cert.Lib.IndexSums

open Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over the indices of an `[n]` array is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A sum over the indices of an `[n, 1]` array is the sum over its row coordinate, the column coordinate `0`. -/
theorem sum_idx_column {M : Type*} [AddCommMonoid M] {n : Nat} (f : (⟨2, ![n, 1]⟩ : Shape).Idx → M) :
    ∑ i, f i = ∑ a : Fin n, f (ix2 a (0 : Fin 1)) := by
  rw [sum_idx2]
  exact Finset.sum_congr rfl fun a _ => Fin.sum_univ_one _

end Cert.Lib.IndexSums

end
-- ==== Proof.LibFoldAppend.lean ====
/-
  The fold of a line of host operations over a concatenation.

  `StableHlo.after ops V` is what a device's buffers hold once the operations `ops` have run in order from contents `V`.
  Running `l₁` and then `l₂` is running `l₁ ++ l₂`: the fold over a concatenation is the fold over the second line from the
  fold over the first. This is what lets a long straight-line program be read back one stretch at a time, each stretch from
  the contents the previous one leaves.
-/
import Idealize.ShloMosaic.Lib.StableHlo.Run

noncomputable section

namespace Idealize.ShloMosaic.StableHlo

variable {τ : Topo} {sig : RefSig} {Val : EltTy → Type}

/-- The buffers after `l₁ ++ l₂` are the buffers after `l₂` from what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.KernelTail.lean ====
/-
  The lines of the program after the kernel: from the [2, 1, 128] array of the two cores' rows to the one number returned.

  Lane `j` (0 to 3) of the two rows is cut out, laid as a vector of two numbers and summed from zero: that is a total over
  both cores. The first sum is replaced by zero when the first count is zero, the second likewise; then
  `(second + 1 · first) / max (count₁ + count₂) 1`: the specification's last step, `Cert.Loss.combine`.
-/
import proofs.«178929_j33062658245027_2_alg».proof.Proof.KernelArray
import proofs.«178929_j33062658245027_2_alg».proof.Proof.LibIndexSums
import proofs.«178929_j33062658245027_2_alg».proof.Proof.LibFoldAppend
import Idealize.ShloMosaic.Lib.StableHlo.Run
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx Idealize.ShloMosaic.StableHlo

namespace Cert.KernelIdeal.Tail

open Cert.KernelIdeal Cert.KernelIdeal.Gen Cert.KernelIdeal.OutArray Cert.Loss

/-- Lane `j` of the two rows, cut out, laid as two numbers and summed from the zero word: zero plus the two rows' lane `j`. -/
theorem lane_read (G : S2x1x128.Idx → EReal) (j : Fin 128) (off : Fin 3 → ℕ) (hoff : off = ![0, 0, j.val])
    (hs : S2x1x128.Slices off S2x1x1) (hc : S2x1x1.ShapeCasts S2) (hr : S2.ReducesTo [0] S_) (h0 : 0 < S_.numel) (i : S_.Idx) :
    Host.reduceAdd (F := Ideal) (shapeCast S2 (extractStridedSlice S2x1x1 off G hs) hc) (constant S_ .f32 0x00000000#32) hr h0 i
      = Ideal.ofBits .f32 0x00000000#32 + ∑ q : Fin 2, G (ix3 q (0 : Fin 1) j) := by
  subst hoff
  simp only [Host.reduceAdd, Ideal.hostReduceAdd_def]
  rw [Ideal.hostReduceAdd_total hr (fun b => b.elim0) _ _ i, Cert.Lib.IndexSums.sum_idx1]
  refine congrArg (_ + ·) (Finset.sum_congr rfl fun q _ => ?_)
  refine (shapeCast_apply _ hc (ix1 q) (ix3 q (0 : Fin 1) (0 : Fin 1)) ?_).trans ?_
  · rw [Shape.rowMajor_val_one, Shape.rowMajor_val_three]
    show (q.val * 1 + 0) * 1 + 0 = q.val
    omega
  · exact extractStridedSlice_apply _ G hs _ (ix3 q (0 : Fin 1) j) (fun a => by
      match a with
      | ⟨0, _⟩ => show q.val = 0 + q.val; omega
      | ⟨1, _⟩ => rfl
      | ⟨2, _⟩ => show j.val = j.val + 0; omega)

/-- The contents of a buffer holding one number, as a function on its one index (the same contents, at that type). -/
abbrev asNum (x : S_.Idx → EReal) : S_.Idx → EReal := x
/-- The contents of a [2, 1, 128] buffer as a function on its indices (the same contents, at that type). -/
abbrev asArr (x : S2x1x128.Idx → EReal) : S2x1x128.Idx → EReal := x

/-- The lines after the four lane sums, listed: the two compare-and-select steps, the total count clamped at one, the
    weighted sum and the quotient. -/
abbrev scalarOps : List (HloOp τ sig (Elt Ideal)) :=
  List.drop 16 (hostOps1 (F := Ideal)) ++ (hostOps1_1 ++ (hostOps1_2 ++ (hostOps1_3 ++ hostOps1_4)))

/-- From ANY contents of the buffers, those lines leave the specification's last step of the four numbers found in the
    four lane-sum buffers. -/
theorem scalar_tail (W : Valuation τ sig (Elt Ideal)) (i : S_.Idx) :
    asNum (after scalarOps W (Proc.devRef .tc main_v21)) i
      = combine (asNum (W (Proc.devRef .tc main_v3)) i) (asNum (W (Proc.devRef .tc main_v6)) i) (asNum (W (Proc.devRef .tc main_v9)) i)
          (asNum (W (Proc.devRef .tc main_v12)) i) := by
  simp only [scalarOps, hostOps1, hostOps1_1, hostOps1_2, hostOps1_3, hostOps1_4, List.drop_succ_cons, List.drop_zero,
    List.cons_append, List.nil_append]
  after_results_simp
  show Ideal.div
      (Scalar.select (Ideal.cmp .oeq (asNum (W (Proc.devRef .tc main_v12)) i) (Ideal.ofBits .f32 0x00000000#32))
          (Ideal.ofBits .f32 0x00000000#32) (asNum (W (Proc.devRef .tc main_v6)) i)
        + Ideal.ofBits .f32 0x3F800000#32 * Scalar.select (Ideal.cmp .oeq (asNum (W (Proc.devRef .tc main_v9)) i) (Ideal.ofBits .f32 0x00000000#32))
          (Ideal.ofBits .f32 0x00000000#32) (asNum (W (Proc.devRef .tc main_v3)) i))
      (max ((asNum (W (Proc.devRef .tc main_v9)) i) + (asNum (W (Proc.devRef .tc main_v12)) i)) (Ideal.ofBits .f32 0x3F800000#32)) = _
  rw [Ideal.ofBits_zero_f32]
  rfl

/-- From ANY contents `W`, the first sixteen lines leave in the four lane-sum buffers zero plus lanes 0 to 3 of the two rows
    of what `W` holds in the output array's buffer. -/
theorem lane_sums (W : Valuation τ sig (Elt Ideal)) (i : S_.Idx) :
    asNum (after (List.take 16 (hostOps1 (F := Ideal))) W (Proc.devRef .tc main_v3)) i
        = Ideal.ofBits .f32 0x00000000#32 + ∑ q : Fin 2, asArr (W (Proc.devRef .tc main_v0)) (ix3 q (0 : Fin 1) (0 : Fin 128))
      ∧ asNum (after (List.take 16 (hostOps1 (F := Ideal))) W (Proc.devRef .tc main_v6)) i
        = Ideal.ofBits .f32 0x00000000#32 + ∑ q : Fin 2, asArr (W (Proc.devRef .tc main_v0)) (ix3 q (0 : Fin 1) (1 : Fin 128))
      ∧ asNum (after (List.take 16 (hostOps1 (F := Ideal))) W (Proc.devRef .tc main_v9)) i
        = Ideal.ofBits .f32 0x00000000#32 + ∑ q : Fin 2, asArr (W (Proc.devRef .tc main_v0)) (ix3 q (0 : Fin 1) (2 : Fin 128))
      ∧ asNum (after (List.take 16 (hostOps1 (F := Ideal))) W (Proc.devRef .tc main_v12)) i
        = Ideal.ofBits .f32 0x00000000#32 + ∑ q : Fin 2, asArr (W (Proc.devRef .tc main_v0)) (ix3 q (0 : Fin 1) (3 : Fin 128)) := by
  simp only [hostOps1, List.take_succ_cons, List.take_zero]
  refine ⟨?_, ?_, ?_, ?_⟩
  · after_results_simp
    exact lane_read (asArr (W (Proc.devRef .tc main_v0))) 0 ![0, 0, 0] rfl _ _ _ _ i
  · after_results_simp
    exact lane_read (asArr (W (Proc.devRef .tc main_v0))) 1 ![0, 0, 1] rfl _ _ _ _ i
  · after_results_simp
    exact lane_read (asArr (W (Proc.devRef .tc main_v0))) 2 ![0, 0, 2] rfl _ _ _ _ i
  · after_results_simp
    exact lane_read (asArr (W (Proc.devRef .tc main_v0))) 3 ![0, 0, 3] rfl _ _ _ _ i

variable (m : (ℓ : Loc nD τ sig) → Buf (Elt Ideal) ℓ)

/-- The array the lines after the kernel read is the output array as the run leaves it. -/
theorem tail_array (c : Dev nD) :
    Pipeline.withArrays (cfgs 0).spec c (V0 m c) (fun w => (dats m 0 c).arrAt w (cfgs 0).N) (Proc.devRef .tc main_v0)
      = outArr m c :=
  (Pipeline.withArrays_arr spec0 launch0.win.arr_inj c _ _ 3).trans (final m c)

/-- Lane `j` of the output array, totalled over the two rows. -/
def laneTotal (c : Dev nD) (j : Fin 128) : EReal := ∑ q : Fin 2, outArr m c (ix3 q (0 : Fin 1) j)

/-- What the program returns: the specification's last step of the four lane totals. -/
theorem tail_value (c : Dev nD) :
    Pipeline.afterTail₀ cfgs (dats m) 0 (V0 m) [hostOps1, hostOps1_1, hostOps1_2, hostOps1_3, hostOps1_4] c main_v21
      = fun _ => combine (laneTotal m c 0) (laneTotal m c 1) (laneTotal m c 2) (laneTotal m c 3) := by
  unfold Pipeline.afterTail₀
  funext i
  simp only [List.flatten_cons, List.flatten_nil, List.append_nil]
  rw [← List.take_append_drop 16 (hostOps1 (F := Ideal)), List.append_assoc, after_append]
  refine (scalar_tail _ i).trans ?_
  obtain ⟨l0, l1, l2, l3⟩ := lane_sums (Pipeline.withArrays (cfgs 0).spec c (V0 m c) (fun w => (dats m 0 c).arrAt w (cfgs 0).N)) i
  rw [l0, l1, l2, l3, tail_array m c, Ideal.ofBits_zero_f32]
  simp only [zero_add]
  rfl

end Cert.KernelIdeal.Tail

end
-- ==== Proof.LibSums.lean ====
/-
  General facts about finite sums: a sum over `a · b` consecutive indices regrouped as `a` consecutive parts of
  `b` terms each; the coercion from the reals to the extended reals taken through a finite sum; and the identity
  between the two ways of writing a population variance, `q / n − μ²` (clamped at zero) and the mean squared
  deviation from the mean.
-/
import Idealize.ShloMosaic.PureOps.Ideal
import Mathlib.Tactic.FieldSimp
import Mathlib.Tactic.Ring
import Mathlib.Algebra.BigOperators.Fin
import Mathlib.Logic.Equiv.Fin.Basic
import Mathlib.Data.EReal.Basic

noncomputable section

open scoped BigOperators

namespace Cert.LibSums

/-- The `r`-th index of the `p`-th part, among `a` parts of `b` indices each, is below `a · b`. -/
theorem part_lt {a b : ℕ} (p : Fin a) (r : Fin b) : p.val * b + r.val < a * b :=
  calc p.val * b + r.val < p.val * b + b := Nat.add_lt_add_left r.isLt _
    _ = (p.val + 1) * b := (Nat.succ_mul _ _).symm
    _ ≤ a * b := Nat.mul_le_mul_right b p.isLt

/-- The same bound against a number `n` known to be `a · b`. -/
theorem part_lt' {a b n : ℕ} (h : a * b = n) (p : Fin a) (r : Fin b) : p.val * b + r.val < n :=
  lt_of_lt_of_eq (part_lt p r) h

/-- Regrouping: the sum over `n = a · b` consecutive indices is the sum over the `a` parts of the sum over each
    part's `b` consecutive indices `p · b + r`. -/
theorem sum_parts {M : Type*} [AddCommMonoid M] {a b n : ℕ} (h : a * b = n) (f : Fin n → M) :
    ∑ p : Fin a, ∑ r : Fin b, f ⟨p.val * b + r.val, part_lt' h p r⟩ = ∑ i : Fin n, f i := by
  subst h
  rw [← Equiv.sum_comp finProdFinEquiv f, Fintype.sum_prod_type]
  refine Finset.sum_congr rfl fun p _ => Finset.sum_congr rfl fun r _ => congrArg f (Fin.ext ?_)
  show p.val * b + r.val = r.val + b * p.val
  rw [Nat.mul_comm, Nat.add_comm]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the squared deviations from the mean `μ = s / n` is `q − n μ²`, where `s` is the sum and `q` the
    sum of the squares. -/
theorem sum_sq_dev {n : ℕ} (hn : 0 < n) (y : Fin n → ℝ) :
    ∑ i, (y i - (∑ j, y j) / n) * (y i - (∑ j, y j) / n)
      = (∑ i, y i * y i) - n * (((∑ j, y j) / n) * ((∑ j, y j) / n)) := by
  have hn' : (n : ℝ) ≠ 0 := Nat.cast_ne_zero.mpr hn.ne'
  generalize hμ : (∑ j, y j) / (n : ℝ) = μ
  have hs : ∑ j, y j = n * μ := by rw [← hμ]; field_simp
  have e : ∀ i, (y i - μ) * (y i - μ) = y i * y i - 2 * μ * y i + μ * μ := fun i => by ring
  simp only [e, Finset.sum_add_distrib, Finset.sum_sub_distrib, ← Finset.mul_sum, Finset.sum_const,
    Finset.card_univ, Fintype.card_fin, nsmul_eq_mul, hs]
  ring

/-- The variance identity over the reals: with `s = Σ y`, `q = Σ y²` and `μ = s / n`, the clamped difference
    `max (q / n − μ · μ) 0` is the mean squared deviation `(Σ (y − μ)²) / n`. -/
theorem variance_real {n : ℕ} (hn : 0 < n) (y : Fin n → ℝ) :
    max ((∑ i, y i * y i) / n - ((∑ j, y j) / n) * ((∑ j, y j) / n)) 0
      = (∑ i, (y i - (∑ j, y j) / n) * (y i - (∑ j, y j) / n)) / n := by
  have hn' : (n : ℝ) ≠ 0 := Nat.cast_ne_zero.mpr hn.ne'
  have key := sum_sq_dev hn y
  have e : (∑ i, y i * y i) / n - ((∑ j, y j) / n) * ((∑ j, y j) / n)
      = (∑ i, (y i - (∑ j, y j) / n) * (y i - (∑ j, y j) / n)) / n := by
    rw [key]; field_simp
  rw [e]
  exact max_eq_left (div_nonneg (Finset.sum_nonneg fun i _ => mul_self_nonneg _) (Nat.cast_nonneg n))

/-- The same on the extended reals, every quantity the coercion of a real: the clamped difference of the
    coerced `q / n` and the coerced mean's square is the coerced mean squared deviation. -/
theorem variance_ereal {n : ℕ} (hn : 0 < n) (y : Fin n → ℝ) :
    max ((((∑ i, y i * y i) / n : ℝ) : EReal) - (((∑ j, y j) / n : ℝ) : EReal) * (((∑ j, y j) / n : ℝ) : EReal)) 0
      = (((∑ i, (y i - (∑ j, y j) / n) * (y i - (∑ j, y j) / n)) / n : ℝ) : EReal) := by
  rw [← EReal.coe_mul, ← EReal.coe_sub, ← EReal.coe_zero, ← EReal.coe_strictMono.monotone.map_max, variance_real hn y]

end Cert.LibSums

end
-- ==== Proof.KernelTotals.lean ====
/-
  From the per-step block totals to the totals over all 524288 rows.

  Step `t` of the grid works on rows `8192 t … 8192 t + 8191` of the three matrices, so its block total of any kind is the
  sum of that kind's per-row term over those rows. A core's running number after its last step is the sum of the block
  totals of its 32 steps; the two cores together cover the 64 steps, and the 64 steps together cover every row once. Sums
  over the extended reals are regrouped freely (they are sums in a commutative monoid): no finiteness is used here.
-/
import proofs.«178929_j33062658245027_2_alg».proof.Proof.KernelAccum
import proofs.«178929_j33062658245027_2_alg».proof.Proof.LibSums

set_option maxRecDepth 16384

noncomputable section

open Idealize.ShloMosaic Idealize.ShloMosaic.TcCoe Idealize.SL.Sem Idealize.ShloMosaic.ValueIdx

namespace Cert.KernelIdeal.Totals

open Cert.KernelIdeal Cert.KernelIdeal.Gen Cert.KernelIdeal.Rows Cert.KernelIdeal.Accum Cert.Loss

variable (m : (ℓ : Loc nD τ sig) → Buf (Elt Ideal) ℓ)

/-! ## Sums over a run of consecutive numbers -/

/-- The sum over `a, a + 1, …, a + k` as a sum over `0 … k`. -/
theorem sum_Icc_block (f : ℕ → EReal) (a k : ℕ) :
    ∑ t ∈ Finset.Icc a (a + k), f t = ∑ i ∈ Finset.range (k + 1), f (a + i) := by
  induction k with
  | zero => simp
  | succ k ih =>
    rw [Finset.sum_range_succ _ (k + 1), ← ih, ← Nat.add_assoc, Finset.sum_Icc_succ_top (by omega)]

/-- A core's running sum after its last step is the sum over its 32 steps. -/
theorem run_core (T : Fin cfg0.N → EReal) (q : Fin 2) :
    run T (32 * q.val + 31) = ∑ i : Fin 32, ext T (q.val * 32 + i.val) := by
  unfold run
  have e : 32 * ((32 * q.val + 31) / 32) = q.val * 32 := by omega
  have e' : 32 * q.val + 31 = q.val * 32 + 31 := by omega
  rw [e, e', sum_Icc_block, Finset.sum_range]

/-- The two cores' closing sums together are the sum over all 64 steps. -/
theorem cores_sum (T : Fin cfg0.N → EReal) :
    ∑ q : Fin 2, run T (32 * q.val + 31) = ∑ n : Fin 64, ext T n.val := by
  rw [← Cert.LibSums.sum_parts (a := 2) (b := 32) (n := 64) rfl (fun n : Fin 64 => ext T n.val)]
  exact Finset.sum_congr rfl fun q _ => run_core T q

/-! ## A block's rows are the matrix's rows -/

/-- The input windows' block index at step `t`: block `t` along the rows, the whole width. Decided over the grid. -/
theorem inputIndex : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of step `n`'s block is row `8192 n + r` of the matrix. -/
def rowOf (n : Fin 64) (r : Fin 8192) : Fin 524288 := ⟨n.val * 8192 + r.val, Cert.LibSums.part_lt' (by norm_num) n r⟩

/-- The three argument matrices as the run finds them. -/
abbrev matA (c : Dev nD) : Mat := m ((c.tc : Thread nD τ).loc main_arg0)
abbrev matP (c : Dev nD) : Mat := m ((c.tc : Thread nD τ).loc main_arg1)
abbrev matN (c : Dev nD) : Mat := m ((c.tc : Thread nD τ).loc main_arg2)

theorem block0_row (c : Dev nD) (n : Fin 64) (h : n.val < cfg0.N) (r : Fin 8192) :
    brow (iblk m c 0 ⟨n.val, h⟩) r = row (matA m c) (rowOf n r) := by
  obtain ⟨e0, e1, -⟩ := inputIndex ⟨n.val, h⟩
  funext k
  show iblk m c 0 ⟨n.val, h⟩ (ix2 r k) = m ((c.tc : Thread nD τ).loc main_arg0) (ix2 (rowOf n r) k)
  unfold iblk
  rw [View.read_apply]
  show V m c main_arg0 (((cfg0.win 0).blk ⟨n.val, h⟩).view.emb (ix2 r k)) = _
  rw [V_main_arg0]
  refine congrArg _ (funext fun a => Fin.ext ?_)
  match a with
  | ⟨0, _⟩ =>
    show win0_0.index ⟨n.val, h⟩ (0 : Fin 2) * 8192 + 1 * r.val = n.val * 8192 + r.val
    have e0' : win0_0.index ⟨n.val, h⟩ (0 : Fin 2) = n.val := e0
    rw [e0']; omega
  | ⟨1, _⟩ => show win0_0.index ⟨n.val, h⟩ (1 : Fin 2) * 128 + 1 * k.val = k.val; rw [e1]; omega

theorem block1_row (c : Dev nD) (n : Fin 64) (h : n.val < cfg0.N) (r : Fin 8192) :
    brow (iblk m c 1 ⟨n.val, h⟩) r = row (matP m c) (rowOf n r) := by
  obtain ⟨-, -, e0, e1, -⟩ := inputIndex ⟨n.val, h⟩
  funext k
  show iblk m c 1 ⟨n.val, h⟩ (ix2 r k) = m ((c.tc : Thread nD τ).loc main_arg1) (ix2 (rowOf n r) k)
  unfold iblk
  rw [View.read_apply]
  show V m c main_arg1 (((cfg0.win 1).blk ⟨n.val, h⟩).view.emb (ix2 r k)) = _
  rw [V_main_arg1]
  refine congrArg _ (funext fun a => Fin.ext ?_)
  match a with
  | ⟨0, _⟩ =>
    show win0_1.index ⟨n.val, h⟩ (0 : Fin 2) * 8192 + 1 * r.val = n.val * 8192 + r.val
    have e0' : win0_1.index ⟨n.val, h⟩ (0 : Fin 2) = n.val := e0
    rw [e0']; omega
  | ⟨1, _⟩ => show win0_1.index ⟨n.val, h⟩ (1 : Fin 2) * 128 + 1 * k.val = k.val; rw [e1]; omega

theorem block2_row (c : Dev nD) (n : Fin 64) (h : n.val < cfg0.N) (r : Fin 8192) :
    brow (iblk m c 2 ⟨n.val, h⟩) r = row (matN m c) (rowOf n r) := by
  obtain ⟨-, -, -, -, e0, e1⟩ := inputIndex ⟨n.val, h⟩
  funext k
  show iblk m c 2 ⟨n.val, h⟩ (ix2 r k) = m ((c.tc : Thread nD τ).loc main_arg2) (ix2 (rowOf n r) k)
  unfold iblk
  rw [View.read_apply]
  show V m c main_arg2 (((cfg0.win 2).blk ⟨n.val, h⟩).view.emb (ix2 r k)) = _
  rw [V_main_arg2]
  refine congrArg _ (funext fun a => Fin.ext ?_)
  match a with
  | ⟨0, _⟩ =>
    show win0_2.index ⟨n.val, h⟩ (0 : Fin 2) * 8192 + 1 * r.val = n.val * 8192 + r.val
    have e0' : win0_2.index ⟨n.val, h⟩ (0 : Fin 2) = n.val := e0
    rw [e0']; omega
  | ⟨1, _⟩ => show win0_2.index ⟨n.val, h⟩ (1 : Fin 2) * 128 + 1 * k.val = k.val; rw [e1]; omega

/-! ## The four totals -/

theorem stepsLt (n : Fin 64) : n.val < cfg0.N := lt_of_lt_of_eq n.isLt N_0.symm

/-- Step `n`'s four block totals as sums of the per-row terms over the matrix's rows `8192 n + r`. -/
theorem tot0_rows (c : Dev nD) (n : Fin 64) :
    ext (tot0 m c) n.val = ∑ r : Fin 8192, hardTerm (pos (matA m c) (matP m c) (rowOf n r)) (neg (matA m c) (matN m c) (rowOf n r)) := by
  unfold ext; rw [dif_pos (stepsLt n)]
  unfold tot0 blockHardSum bpos bneg
  refine Finset.sum_congr rfl fun r _ => ?_
  rw [block0_row m c n (stepsLt n) r, block1_row m c n (stepsLt n) r, block2_row m c n (stepsLt n) r]
  rfl

theorem tot1_rows (c : Dev nD) (n : Fin 64) :
    ext (tot1 m c) n.val = ∑ r : Fin 8192, otherTerm (pos (matA m c) (matP m c) (rowOf n r)) (neg (matA m c) (matN m c) (rowOf n r)) := by
  unfold ext; rw [dif_pos (stepsLt n)]
  unfold tot1 blockOtherSum bpos bneg
  refine Finset.sum_congr rfl fun r _ => ?_
  rw [block0_row m c n (stepsLt n) r, block1_row m c n (stepsLt n) r, block2_row m c n (stepsLt n) r]
  rfl

theorem tot2_rows (c : Dev nD) (n : Fin 64) :
    ext (tot2 m c) n.val = ∑ r : Fin 8192, count (hard (pos (matA m c) (matP m c) (rowOf n r)) (neg (matA m c) (matN m c) (rowOf n r))) := by
  unfold ext; rw [dif_pos (stepsLt n)]
  unfold tot2 blockHardCount bpos bneg
  refine Finset.sum_congr rfl fun r _ => ?_
  rw [block0_row m c n (stepsLt n) r, block1_row m c n (stepsLt n) r, block2_row m c n (stepsLt n) r]
  rfl

theorem tot3_rows (c : Dev nD) (n : Fin 64) :
    ext (tot3 m c) n.val = ∑ r : Fin 8192, count (hard (pos (matA m c) (matP m c) (rowOf n r)) (neg (matA m c) (matN m c) (rowOf n r)) ^^^ 1#1) := by
  unfold ext; rw [dif_pos (stepsLt n)]
  unfold tot3 blockOtherCount bpos bneg
  refine Finset.sum_congr rfl fun r _ => ?_
  rw [block0_row m c n (stepsLt n) r, block1_row m c n (stepsLt n) r, block2_row m c n (stepsLt n) r]
  rfl

/-- All 64 steps' rows are all 524288 rows, once each. -/
theorem steps_rows (f : Fin 524288 → EReal) : ∑ n : Fin 64, ∑ r : Fin 8192, f (rowOf n r) = ∑ R : Fin 524288, f R :=
  Cert.LibSums.sum_parts (a := 64) (b := 8192) (n := 524288) (by norm_num) f

/-- The two cores' closing numbers add up to the specification's four totals. -/
theorem total0 (c : Dev nD) : ∑ q : Fin 2, run (tot0 m c) (32 * q.val + 31) = hardSum (matA m c) (matP m c) (matN m c) := by
  rw [cores_sum]
  unfold hardSum
  rw [← steps_rows]
  exact Finset.sum_congr rfl fun n _ => tot0_rows m c n

theorem total1 (c : Dev nD) : ∑ q : Fin 2, run (tot1 m c) (32 * q.val + 31) = otherSum (matA m c) (matP m c) (matN m c) := by
  rw [cores_sum]
  unfold otherSum
  rw [← steps_rows]
  exact Finset.sum_congr rfl fun n _ => tot1_rows m c n

theorem total2 (c : Dev nD) : ∑ q : Fin 2, run (tot2 m c) (32 * q.val + 31) = hardCount (matA m c) (matP m c) (matN m c) := by
  rw [cores_sum]
  unfold hardCount
  rw [← steps_rows]
  exact Finset.sum_congr rfl fun n _ => tot2_rows m c n

theorem total3 (c : Dev nD) : ∑ q : Fin 2, run (tot3 m c) (32 * q.val + 31) = otherCount (matA m c) (matP m c) (matN m c) := by
  rw [cores_sum]
  unfold otherCount
  rw [← steps_rows]
  exact Finset.sum_congr rfl fun n _ => tot3_rows m c n

end Cert.KernelIdeal.Totals

end
-- ==== Proof.KernelValue.lean ====
/-
  The idealized kernel's run, read: the one number it returns is the specification's loss of the three argument matrices.

  The four lane totals of the output array are the two cores' closing numbers added, and those are the specification's
  four totals over all rows; the lines after the kernel apply the specification's last step to them.
-/
import proofs.«178929_j33062658245027_2_alg».proof.Proof.KernelTail
import proofs.«178929_j33062658245027_2_alg».proof.Proof.KernelTotals

set_option maxRecDepth 16384

noncomputable section

open Idealize.ShloMosaic Idealize.ShloMosaic.TcCoe Idealize.SL.Sem Idealize.ShloMosaic.ValueIdx

namespace Cert.KernelIdeal.Value

open Cert.KernelIdeal Cert.KernelIdeal.Gen Cert.KernelIdeal.Accum Cert.KernelIdeal.OutArray Cert.KernelIdeal.Tail
  Cert.KernelIdeal.Totals Cert.Loss

variable (m : (ℓ : Loc nD τ sig) → Buf (Elt Ideal) ℓ) (ρ : Dev nD → PrngReg)

/-- The four lane totals are the specification's four totals. -/
theorem laneTotal0 (c : Dev nD) : laneTotal m c 0 = hardSum (matA m c) (matP m c) (matN m c) :=
  (Finset.sum_congr rfl fun q _ => (lanes m c q).1).trans (total0 m c)
theorem laneTotal1 (c : Dev nD) : laneTotal m c 1 = otherSum (matA m c) (matP m c) (matN m c) :=
  (Finset.sum_congr rfl fun q _ => (lanes m c q).2.1).trans (total1 m c)
theorem laneTotal2 (c : Dev nD) : laneTotal m c 2 = hardCount (matA m c) (matP m c) (matN m c) :=
  (Finset.sum_congr rfl fun q _ => (lanes m c q).2.2.1).trans (total2 m c)
theorem laneTotal3 (c : Dev nD) : laneTotal m c 3 = otherCount (matA m c) (matP m c) (matN m c) :=
  (Finset.sum_congr rfl fun q _ => (lanes m c q).2.2.2).trans (total3 m c)

/-- What the program returns. -/
def result (c : Dev nD) : Buf (Elt Ideal) ((c.tc : Thread nD τ).loc main_v21) :=
  fun _ => loss (matA m c) (matP m c) (matN m c)

theorem tail_result (c : Dev nD) :
    Pipeline.afterTail₀ cfgs (dats m) 0 (V0 m) [hostOps1, hostOps1_1, hostOps1_2, hostOps1_3, hostOps1_4] c main_v21
      = result m c := by
  rw [tail_value, laneTotal0, laneTotal1, laneTotal2, laneTotal3]
  rfl

/-- Every weakly fair execution of the idealized kernel's program ends with the result at the specification's loss of the
    argument matrices, and the six arguments unchanged. -/
theorem run : θ_run (defs (F := Ideal)) (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v21 (Pipeline.mem_restRefs_of main_v21 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Value

end
-- ==== Proof.RefRunParts.lean ====
/-
  The reference program's straight line of 96 host operations, cut into five consecutive stretches.

  Each stretch is the literal list of its operations, in program order; their concatenation is the whole line. A stretch is
  short enough that the contents it leaves in a buffer can be read back in one pass as a small term over the contents it
  started from, so the whole line is read one stretch at a time.
-/
import proofs.«178929_j33062658245027_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 0–29: each of the three arguments divided, row by row, by the larger of its row norm and a small constant. -/
abbrev stretch1 : List (HloOp τ sig (Elt F)) :=
  [ binary main_arg0 main_arg0 main_v0 (mulf : (⟨S524288x128, .f32⟩ : BufTy).Contents (Elt F) → (⟨S524288x128, .f32⟩ : BufTy).Contents (Elt F) → (⟨S524288x128, .f32⟩ : BufTy).Contents (Elt F)),
    nullary main_cst (constant S_ .f32 0x00000000#32),
    binary main_v0 main_cst main_v1 ((fun x v => Host.reduceAdd x v reducesTo_S524288x128_S524288_d1 h_S_) : (⟨S524288x128, .f32⟩ : BufTy).Contents (Elt F) → (⟨S_, .f32⟩ : BufTy).Contents (Elt F) → (⟨S524288, .f32⟩ : BufTy).Contents (Elt F)),
    unary main_v1 main_v2 (broadcastInDim S524288x1 ![0] bcast_S524288_S524288x1_0 : (⟨S524288, .f32⟩ : BufTy).Contents (Elt F) → (⟨S524288x1, .f32⟩ : BufTy).Contents (Elt F)),
    unary main_v2 main_v3 (Host.sqrt : (⟨S524288x1, .f32⟩ : BufTy).Contents (Elt F) → (⟨S524288x1, .f32⟩ : BufTy).Contents (Elt F)),
    nullary main_cst_0 (constant S_ .f32 0x2B8CBCCC#32),
    unary main_cst_0 main_v4 (broadcastInDim S524288x1 ![] bcast_S_S524288x1 : (⟨S_, .f32⟩ : BufTy).Contents (Elt F) → (⟨S524288x1, .f32⟩ : BufTy).Contents (Elt F)),
    binary main_v3 main_v4 main_v5 (maximumf : (⟨S524288x1, .f32⟩ : BufTy).Contents (Elt F) → (⟨S524288x1, .f32⟩ : BufTy).Contents (Elt F) → (⟨S524288x1, .f32⟩ : BufTy).Contents (Elt F)),
    unary main_v5 main_v6 (broadcastInDim S524288x128 ![0, 1] bcast_S524288x1_S524288x128_0_1 : (⟨S524288x1, .f32⟩ : BufTy).Contents (Elt F) → (⟨S524288x128, .f32⟩ : BufTy).Contents (Elt F)),
    binary main_arg0 main_v6 main_v7 (Host.divf : (⟨S524288x128, .f32⟩ : BufTy).Contents (Elt F) → (⟨S524288x128, .f32⟩ : BufTy).Contents (Elt F) → (⟨S524288x128, .f32⟩ : BufTy).Contents (Elt F)),
    binary main_arg1 main_arg1 main_v8 (mulf : (⟨S524288x128, .f32⟩ : BufTy).Contents (Elt F) → (⟨S524288x128, .f32⟩ : BufTy).Contents (Elt F) → (⟨S524288x128, .f32⟩ : BufTy).Contents (Elt F)),
    nullary main_cst_1 (constant S_ .f32 0x00000000#32),
    binary main_v8 main_cst_1 main_v9 ((fun x v => Host.reduceAdd x v reducesTo_S524288x128_S524288_d1 h_S_) : (⟨S524288x128, .f32⟩ : BufTy).Contents (Elt F) → (⟨S_, .f32⟩ : BufTy).Contents (Elt F) → (⟨S524288, .f32⟩ : BufTy).Contents (Elt F)),
    unary main_v9 main_v10 (broadcastInDim S524288x1 ![0] bcast_S524288_S524288x1_0 : (⟨S524288, .f32⟩ : BufTy).Contents (Elt F) → (⟨S524288x1, .f32⟩ : BufTy).Contents (Elt F)),
    unary main_v10 main_v11 (Host.sqrt : (⟨S524288x1, .f32⟩ : BufTy).Contents (Elt F) → (⟨S524288x1, .f32⟩ : BufTy).Contents (Elt F)),
    nullary main_cst_2 (constant S_ .f32 0x2B8CBCCC#32),
    unary main_cst_2 main_v12 (broadcastInDim S524288x1 ![] bcast_S_S524288x1 : (⟨S_, .f32⟩ : BufTy).Contents (Elt F) → (⟨S524288x1, .f32⟩ : BufTy).Contents (Elt F)),
    binary main_v11 main_v12 main_v13 (maximumf : (⟨S524288x1, .f32⟩ : BufTy).Contents (Elt F) → (⟨S524288x1, .f32⟩ : BufTy).Contents (Elt F) → (⟨S524288x1, .f32⟩ : BufTy).Contents (Elt F)),
    unary main_v13 main_v14 (broadcastInDim S524288x128 ![0, 1] bcast_S524288x1_S524288x128_0_1 : (⟨S524288x1, .f32⟩ : BufTy).Contents (Elt F) → (⟨S524288x128, .f32⟩ : BufTy).Contents (Elt F)),
    binary main_arg1 main_v14 main_v15 (Host.divf : (⟨S524288x128, .f32⟩ : BufTy).Contents (Elt F) → (⟨S524288x128, .f32⟩ : BufTy).Contents (Elt F) → (⟨S524288x128, .f32⟩ : BufTy).Contents (Elt F)),
    binary main_arg2 main_arg2 main_v16 (mulf : (⟨S524288x128, .f32⟩ : BufTy).Contents (Elt F) → (⟨S524288x128, .f32⟩ : BufTy).Contents (Elt F) → (⟨S524288x128, .f32⟩ : BufTy).Contents (Elt F)),
    nullary main_cst_3 (constant S_ .f32 0x00000000#32),
    binary main_v16 main_cst_3 main_v17 ((fun x v => Host.reduceAdd x v reducesTo_S524288x128_S524288_d1 h_S_) : (⟨S524288x128, .f32⟩ : BufTy).Contents (Elt F) → (⟨S_, .f32⟩ : BufTy).Contents (Elt F) → (⟨S524288, .f32⟩ : BufTy).Contents (Elt F)),
    unary main_v17 main_v18 (broadcastInDim S524288x1 ![0] bcast_S524288_S524288x1_0 : (⟨S524288, .f32⟩ : BufTy).Contents (Elt F) → (⟨S524288x1, .f32⟩ : BufTy).Contents (Elt F)),
    unary main_v18 main_v19 (Host.sqrt : (⟨S524288x1, .f32⟩ : BufTy).Contents (Elt F) → (⟨S524288x1, .f32⟩ : BufTy).Contents (Elt F)),
    nullary main_cst_4 (constant S_ .f32 0x2B8CBCCC#32),
    unary main_cst_4 main_v20 (broadcastInDim S524288x1 ![] bcast_S_S524288x1 : (⟨S_, .f32⟩ : BufTy).Contents (Elt F) → (⟨S524288x1, .f32⟩ : BufTy).Contents (Elt F)),
    binary main_v19 main_v20 main_v21 (maximumf : (⟨S524288x1, .f32⟩ : BufTy).Contents (Elt F) → (⟨S524288x1, .f32⟩ : BufTy).Contents (Elt F) → (⟨S524288x1, .f32⟩ : BufTy).Contents (Elt F)),
    unary main_v21 main_v22 (broadcastInDim S524288x128 ![0, 1] bcast_S524288x1_S524288x128_0_1 : (⟨S524288x1, .f32⟩ : BufTy).Contents (Elt F) → (⟨S524288x128, .f32⟩ : BufTy).Contents (Elt F)),
    binary main_arg2 main_v22 main_v23 (Host.divf : (⟨S524288x128, .f32⟩ : BufTy).Contents (Elt F) → (⟨S524288x128, .f32⟩ : BufTy).Contents (Elt F) → (⟨S524288x128, .f32⟩ : BufTy).Contents (Elt F)) ]

/-- Operations 30–40: the two row-wise inner products of the normalized arguments, and the mask of the rows where the second exceeds the first or a fixed threshold. -/
abbrev stretch2 : List (HloOp τ sig (Elt F)) :=
  [ binary main_v7 main_v15 main_v24 (mulf : (⟨S524288x128, .f32⟩ : BufTy).Contents (Elt F) → (⟨S524288x128, .f32⟩ : BufTy).Contents (Elt F) → (⟨S524288x128, .f32⟩ : BufTy).Contents (Elt F)),
    nullary main_cst_5 (constant S_ .f32 0x00000000#32),
    binary main_v24 main_cst_5 main_v25 ((fun x v => Host.reduceAdd x v reducesTo_S524288x128_S524288_d1 h_S_) : (⟨S524288x128, .f32⟩ : BufTy).Contents (Elt F) → (⟨S_, .f32⟩ : BufTy).Contents (Elt F) → (⟨S524288, .f32⟩ : BufTy).Contents (Elt F)),
    binary main_v7 main_v23 main_v26 (mulf : (⟨S524288x128, .f32⟩ : BufTy).Contents (Elt F) → (⟨S524288x128, .f32⟩ : BufTy).Contents (Elt F) → (⟨S524288x128, .f32⟩ : BufTy).Contents (Elt F)),
    nullary main_cst_6 (constant S_ .f32 0x00000000#32),
    binary main_v26 main_cst_6 main_v27 ((fun x v => Host.reduceAdd x v reducesTo_S524288x128_S524288_d1 h_S_) : (⟨S524288x128, .f32⟩ : BufTy).Contents (Elt F) → (⟨S_, .f32⟩ : BufTy).Contents (Elt F) → (⟨S524288, .f32⟩ : BufTy).Contents (Elt F)),
    binary main_v27 main_v25 main_v28 (cmpf .ogt : (⟨S524288, .f32⟩ : BufTy).Contents (Elt F) → (⟨S524288, .f32⟩ : BufTy).Contents (Elt F) → (⟨S524288, .i1⟩ : BufTy).Contents (Elt F)),
    nullary main_cst_7 (constant S_ .f32 0x3F4CCCCD#32),
    unary main_cst_7 main_v29 (broadcastInDim S524288 ![] bcast_S_S524288 : (⟨S_, .f32⟩ : BufTy).Contents (Elt F) → (⟨S524288, .f32⟩ : BufTy).Contents (Elt F)),
    binary main_v27 main_v29 main_v30 (cmpf .ogt : (⟨S524288, .f32⟩ : BufTy).Contents (Elt F) → (⟨S524288, .f32⟩ : BufTy).Contents (Elt F) → (⟨S524288, .i1⟩ : BufTy).Contents (Elt F)),
    binary main_v28 main_v30 main_v31 (ori : (⟨S524288, .i1⟩ : BufTy).Contents (Elt F) → (⟨S524288, .i1⟩ : BufTy).Contents (Elt F) → (⟨S524288, .i1⟩ : BufTy).Contents (Elt F)) ]

/-- Operations 41–49: the sum of the second inner product over the masked rows, and the number of masked rows. -/
abbrev stretch3 : List (HloOp τ sig (Elt F)) :=
  [ nullary main_cst_8 (constant S_ .f32 0x00000000#32),
    TRef.unary (TRef.of (T := ⟨S_, .f32⟩) main_cst_8) (TRef.of (T := ⟨S_, .f32⟩) main_call0_v0) id,
    TRef.unary (TRef.of (T := ⟨S_, .f32⟩) main_call0_v0) (TRef.of (T := ⟨S524288, .f32⟩) main_call0_v1) (broadcastInDim S524288 ![] bcast_S_S524288),
    TRef.ternary (TRef.of (T := ⟨S524288, .i1⟩) main_v31) (TRef.of (T := ⟨S524288, .f32⟩) main_v27) (TRef.of (T := ⟨S524288, .f32⟩) main_call0_v1) (TRef.of (T := ⟨S524288, .f32⟩) main_v32) select,
    nullary main_cst_9 (constant S_ .f32 0x00000000#32),
    binary main_v32 main_cst_9 main_v33 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    unary main_v31 main_v34 ((extui 32 · natLt_1_32) : (⟨S524288, .i1⟩ : BufTy).Contents (Elt F) → (⟨S524288, .i32⟩ : BufTy).Contents (Elt F)),
    nullary main_c (constantI S_ 32 0#32),
    binary main_v34 main_c main_v35 ((fun x v => Host.reduce IntOp.addi x v reducesTo_S524288_S_d0 h_S_) : (⟨S524288, .i32⟩ : BufTy).Contents (Elt F) → (⟨S_, .i32⟩ : BufTy).Contents (Elt F) → (⟨S_, .i32⟩ : BufTy).Contents (Elt F)) ]

/-- Operations 50–77: over the other rows, the sum of the softplus of the scaled difference of the inner products, and their number. -/
abbrev stretch4 : List (HloOp τ sig (Elt F)) :=
  [ unary main_v31 main_v36 (noti : (⟨S524288, .i1⟩ : BufTy).Contents (Elt F) → (⟨S524288, .i1⟩ : BufTy).Contents (Elt F)),
    binary main_v27 main_v25 main_v37 (subf : (⟨S524288, .f32⟩ : BufTy).Contents (Elt F) → (⟨S524288, .f32⟩ : BufTy).Contents (Elt F) → (⟨S524288, .f32⟩ : BufTy).Contents (Elt F)),
    nullary main_cst_10 (constant S_ .f32 0x3DCCCCCD#32),
    unary main_cst_10 main_v38 (broadcastInDim S524288 ![] bcast_S_S524288 : (⟨S_, .f32⟩ : BufTy).Contents (Elt F) → (⟨S524288, .f32⟩ : BufTy).Contents (Elt F)),
    binary main_v37 main_v38 main_v39 (Host.divf : (⟨S524288, .f32⟩ : BufTy).Contents (Elt F) → (⟨S524288, .f32⟩ : BufTy).Contents (Elt F) → (⟨S524288, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S524288, .f32⟩) main_call1_v0) (broadcastInDim S524288 ![] bcast_S_S524288),
    TRef.binary (TRef.of (T := ⟨S524288, .f32⟩) main_v39) (TRef.of (T := ⟨S524288, .f32⟩) main_call1_v0) (TRef.of (T := ⟨S524288, .f32⟩) main_call1_v1) maximumf,
    TRef.unary (TRef.of (T := ⟨S_, .f32⟩) main_call1_cst) (TRef.of (T := ⟨S524288, .f32⟩) main_call1_v2) (broadcastInDim S524288 ![] bcast_S_S524288),
    TRef.binary (TRef.of (T := ⟨S524288, .f32⟩) main_v39) (TRef.of (T := ⟨S524288, .f32⟩) main_call1_v2) (TRef.of (T := ⟨S524288, .f32⟩) main_call1_v3) subf,
    TRef.binary (TRef.of (T := ⟨S524288, .f32⟩) main_call1_v3) (TRef.of (T := ⟨S524288, .f32⟩) main_call1_v3) (TRef.of (T := ⟨S524288, .i1⟩) main_call1_v4) (cmpf .une),
    TRef.unary (TRef.of (T := ⟨S_, .f32⟩) main_call1_cst) (TRef.of (T := ⟨S524288, .f32⟩) main_call1_v5) (broadcastInDim S524288 ![] bcast_S_S524288),
    TRef.binary (TRef.of (T := ⟨S524288, .f32⟩) main_v39) (TRef.of (T := ⟨S524288, .f32⟩) main_call1_v5) (TRef.of (T := ⟨S524288, .f32⟩) main_call1_v6) addf,
    TRef.unary (TRef.of (T := ⟨S524288, .f32⟩) main_call1_v3) (TRef.of (T := ⟨S524288, .f32⟩) main_call1_v7) Host.absf,
    TRef.unary (TRef.of (T := ⟨S524288, .f32⟩) main_call1_v7) (TRef.of (T := ⟨S524288, .f32⟩) main_call1_v8) Host.negf,
    TRef.unary (TRef.of (T := ⟨S524288, .f32⟩) main_call1_v8) (TRef.of (T := ⟨S524288, .f32⟩) main_call1_v9) Host.exp,
    TRef.unary (TRef.of (T := ⟨S524288, .f32⟩) main_call1_v9) (TRef.of (T := ⟨S524288, .f32⟩) main_call1_v10) Host.log1p,
    TRef.binary (TRef.of (T := ⟨S524288, .f32⟩) main_call1_v1) (TRef.of (T := ⟨S524288, .f32⟩) main_call1_v10) (TRef.of (T := ⟨S524288, .f32⟩) main_call1_v11) addf,
    TRef.ternary (TRef.of (T := ⟨S524288, .i1⟩) main_call1_v4) (TRef.of (T := ⟨S524288, .f32⟩) main_call1_v6) (TRef.of (T := ⟨S524288, .f32⟩) main_call1_v11) (TRef.of (T := ⟨S524288, .f32⟩) main_v40) select,
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S524288, .f32⟩) main_call2_v1) (broadcastInDim S524288 ![] bcast_S_S524288),
    TRef.ternary (TRef.of (T := ⟨S524288, .i1⟩) main_v36) (TRef.of (T := ⟨S524288, .f32⟩) main_v40) (TRef.of (T := ⟨S524288, .f32⟩) main_call2_v1) (TRef.of (T := ⟨S524288, .f32⟩) main_v41) select,
    nullary main_cst_12 (constant S_ .f32 0x00000000#32),
    binary main_v41 main_cst_12 main_v42 ((fun x v => Host.reduceAdd x v reducesTo_S524288_S_d0 h_S_) : (⟨S524288, .f32⟩ : BufTy).Contents (Elt F) → (⟨S_, .f32⟩ : BufTy).Contents (Elt F) → (⟨S_, .f32⟩ : BufTy).Contents (Elt F)),
    unary main_v36 main_v43 ((extui 32 · natLt_1_32) : (⟨S524288, .i1⟩ : BufTy).Contents (Elt F) → (⟨S524288, .i32⟩ : BufTy).Contents (Elt F)),
    nullary main_c_13 (constantI S_ 32 0#32),
    binary main_v43 main_c_13 main_v44 ((fun x v => Host.reduce IntOp.addi x v reducesTo_S524288_S_d0 h_S_) : (⟨S524288, .i32⟩ : BufTy).Contents (Elt F) → (⟨S_, .i32⟩ : BufTy).Contents (Elt F) → (⟨S_, .i32⟩ : BufTy).Contents (Elt F)) ]

/-- Operations 78–95: the two sums, each read as zero when its count is zero, added and divided by the total count (at least one). -/
abbrev stretch5 : List (HloOp τ sig (Elt F)) :=
  [ nullary main_c_14 (constantI S_ 32 0#32),
    binary main_v35 main_c_14 main_v45 (cmpi .eq : (⟨S_, .i32⟩ : BufTy).Contents (Elt F) → (⟨S_, .i32⟩ : BufTy).Contents (Elt F) → (⟨S_, .i1⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.ternary (TRef.of (T := ⟨S_, .i1⟩) main_v45) (TRef.of (T := ⟨S_, .f32⟩) main_call3_v0) (TRef.of (T := ⟨S_, .f32⟩) main_v33) (TRef.of (T := ⟨S_, .f32⟩) main_v46) select,
    nullary main_c_16 (constantI S_ 32 0#32),
    binary main_v44 main_c_16 main_v47 (cmpi .eq : (⟨S_, .i32⟩ : BufTy).Contents (Elt F) → (⟨S_, .i32⟩ : BufTy).Contents (Elt F) → (⟨S_, .i1⟩ : BufTy).Contents (Elt F)),
    nullary main_cst_17 (constant S_ .f32 0x00000000#32),
    TRef.unary (TRef.of (T := ⟨S_, .f32⟩) main_cst_17) (TRef.of (T := ⟨S_, .f32⟩) main_call4_v0) id,
    TRef.ternary (TRef.of (T := ⟨S_, .i1⟩) main_v47) (TRef.of (T := ⟨S_, .f32⟩) main_call4_v0) (TRef.of (T := ⟨S_, .f32⟩) main_v42) (TRef.of (T := ⟨S_, .f32⟩) main_v48) select,
    binary main_v35 main_v44 main_v49 (addi : (⟨S_, .i32⟩ : BufTy).Contents (Elt F) → (⟨S_, .i32⟩ : BufTy).Contents (Elt F) → (⟨S_, .i32⟩ : BufTy).Contents (Elt F)),
    nullary main_c_18 (constantI S_ 32 1#32),
    binary main_v49 main_c_18 main_v50 (maxsi : (⟨S_, .i32⟩ : BufTy).Contents (Elt F) → (⟨S_, .i32⟩ : BufTy).Contents (Elt F) → (⟨S_, .i32⟩ : BufTy).Contents (Elt F)),
    nullary main_cst_19 (constant S_ .f32 0x3F800000#32),
    binary main_cst_19 main_v46 main_v51 (mulf : (⟨S_, .f32⟩ : BufTy).Contents (Elt F) → (⟨S_, .f32⟩ : BufTy).Contents (Elt F) → (⟨S_, .f32⟩ : BufTy).Contents (Elt F)),
    binary main_v48 main_v51 main_v52 (addf : (⟨S_, .f32⟩ : BufTy).Contents (Elt F) → (⟨S_, .f32⟩ : BufTy).Contents (Elt F) → (⟨S_, .f32⟩ : BufTy).Contents (Elt F)),
    unary main_v50 main_v53 (sitofp .f32 : (⟨S_, .i32⟩ : BufTy).Contents (Elt F) → (⟨S_, .f32⟩ : BufTy).Contents (Elt F)),
    binary main_v52 main_v53 main_v54 (Host.divf : (⟨S_, .f32⟩ : BufTy).Contents (Elt F) → (⟨S_, .f32⟩ : BufTy).Contents (Elt F) → (⟨S_, .f32⟩ : BufTy).Contents (Elt F)) ]

end Cert.ReferenceIdeal.HandRun

end
-- ==== Proof.RefRunKeeps.lean ====
/-
  What each stretch of the reference's line of operations leaves untouched.

  Every host operation writes exactly one buffer. For each stretch, the list of the buffers its operations write is given,
  and a buffer outside the list holds after the stretch what it held before. This carries, through a stretch, the values that
  earlier stretches left for later ones, and shows that no stretch writes an argument.
-/
import proofs.«178929_j33062658245027_2_alg».proof.Proof.RefRunParts
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in a literal list: the operation's `writes` is the singleton of its result buffer, and
    membership of that buffer in the list is decided. -/
macro "writes_one" : tactic =>
  `(tactic| (simp only [nullary_writes, unary_writes, binary_writes, ternary_writes, Finset.singleton_subset_iff,
      List.mem_toFinset]; exact List.mem_map_of_mem (by decide)))

/-- The buffers the first stretch's operations write. -/
abbrev stretch1_W : List (Ref sig .tc) := [main_v0, main_cst, main_v1, main_v2, main_v3, main_cst_0, main_v4, main_v5, main_v6, main_v7, main_v8, main_cst_1, main_v9, main_v10, main_v11, main_cst_2, main_v12, main_v13, main_v14, main_v15, main_v16, main_cst_3, main_v17, main_v18, main_v19, main_cst_4, main_v20, main_v21, main_v22, main_v23]

/-- Each operation of the first stretch writes one buffer, and it is in the list. -/
theorem stretch1_writes : (stretch1 : List (HloOp τ sig (Elt F))).Forall fun op =>
    op.writes ⊆ (stretch1_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer the first stretch does not write keeps its contents through it. -/
theorem stretch1_keep (W : Valuation τ sig (Elt F)) (r : Ref sig .tc) (h : r ∉ stretch1_W) :
    after stretch1 W (Proc.devRef .tc r) = W (Proc.devRef .tc r) :=
  after_of_writes_sub stretch1 W stretch1_writes h

/-- The buffers the second stretch's operations write. -/
abbrev stretch2_W : List (Ref sig .tc) := [main_v24, main_cst_5, main_v25, main_v26, main_cst_6, main_v27, main_v28, main_cst_7, main_v29, main_v30, main_v31]

/-- Each operation of the second stretch writes one buffer, and it is in the list. -/
theorem stretch2_writes : (stretch2 : List (HloOp τ sig (Elt F))).Forall fun op =>
    op.writes ⊆ (stretch2_W.map (Proc.devRef (τ := τ) .tc)).toFinset := by
  simp only [List.Forall]
  exact ⟨by writes_one, by writes_one, by writes_one, by writes_one, by writes_one, by writes_one, by writes_one, by writes_one, by writes_one, by writes_one, by writes_one⟩

/-- A buffer the second stretch does not write keeps its contents through it. -/
theorem stretch2_keep (W : Valuation τ sig (Elt F)) (r : Ref sig .tc) (h : r ∉ stretch2_W) :
    after stretch2 W (Proc.devRef .tc r) = W (Proc.devRef .tc r) :=
  after_of_writes_sub stretch2 W stretch2_writes h

/-- The buffers the third stretch's operations write. -/
abbrev stretch3_W : List (Ref sig .tc) := [main_cst_8, main_call0_v0, main_call0_v1, main_v32, main_cst_9, main_v33, main_v34, main_c, main_v35]

/-- Each operation of the third stretch writes one buffer, and it is in the list. -/
theorem stretch3_writes : (stretch3 : List (HloOp τ sig (Elt F))).Forall fun op =>
    op.writes ⊆ (stretch3_W.map (Proc.devRef (τ := τ) .tc)).toFinset := by
  simp only [List.Forall]
  exact ⟨by writes_one, by writes_one, by writes_one, by writes_one, by writes_one, by writes_one, by writes_one, by writes_one, by writes_one⟩

/-- A buffer the third stretch does not write keeps its contents through it. -/
theorem stretch3_keep (W : Valuation τ sig (Elt F)) (r : Ref sig .tc) (h : r ∉ stretch3_W) :
    after stretch3 W (Proc.devRef .tc r) = W (Proc.devRef .tc r) :=
  after_of_writes_sub stretch3 W stretch3_writes h

/-- The buffers the fourth stretch's operations write. -/
abbrev stretch4_W : List (Ref sig .tc) := [main_v36, main_v37, main_cst_10, main_v38, main_v39, main_call1_cst, main_call1_v0, main_call1_v1, main_call1_v2, main_call1_v3, main_call1_v4, main_call1_v5, main_call1_v6, main_call1_v7, main_call1_v8, main_call1_v9, main_call1_v10, main_call1_v11, main_v40, main_cst_11, main_call2_v0, main_call2_v1, main_v41, main_cst_12, main_v42, main_v43, main_c_13, main_v44]

/-- Each operation of the fourth stretch writes one buffer, and it is in the list. -/
theorem stretch4_writes : (stretch4 : List (HloOp τ sig (Elt F))).Forall fun op =>
    op.writes ⊆ (stretch4_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one, by writes_one⟩

/-- A buffer the fourth stretch does not write keeps its contents through it. -/
theorem stretch4_keep (W : Valuation τ sig (Elt F)) (r : Ref sig .tc) (h : r ∉ stretch4_W) :
    after stretch4 W (Proc.devRef .tc r) = W (Proc.devRef .tc r) :=
  after_of_writes_sub stretch4 W stretch4_writes h

/-- The buffers the fifth stretch's operations write. -/
abbrev stretch5_W : List (Ref sig .tc) := [main_c_14, main_v45, main_cst_15, main_call3_v0, main_v46, main_c_16, main_v47, main_cst_17, main_call4_v0, main_v48, main_v49, main_c_18, main_v50, main_cst_19, main_v51, main_v52, main_v53, main_v54]

/-- Each operation of the fifth stretch writes one buffer, and it is in the list. -/
theorem stretch5_writes : (stretch5 : List (HloOp τ sig (Elt F))).Forall fun op =>
    op.writes ⊆ (stretch5_W.map (Proc.devRef (τ := τ) .tc)).toFinset := by
  simp only [List.Forall]
  exact ⟨by writes_one, by writes_one, by writes_one, by writes_one, by writes_one, by writes_one, by writes_one, by writes_one, by writes_one, by writes_one, by writes_one, by writes_one, by writes_one, by writes_one, by writes_one, by writes_one, by writes_one, by writes_one⟩

/-- A buffer the fifth stretch does not write keeps its contents through it. -/
theorem stretch5_keep (W : Valuation τ sig (Elt F)) (r : Ref sig .tc) (h : r ∉ stretch5_W) :
    after stretch5 W (Proc.devRef .tc r) = W (Proc.devRef .tc r) :=
  after_of_writes_sub stretch5 W stretch5_writes h

end Cert.ReferenceIdeal.HandRun

end
-- ==== Proof.LibReadStretch.lean ====
/-
  Reading a stretch of host operations through a two-operand concatenation.

  The contents a buffer holds after a line of host operations are found by rewriting each operation's result at its own buffer
  to its function's value and at any other buffer to what was there. A concatenation takes its operands as a list of
  shape-tagged vectors together with a witness about the list's tags; because the witness speaks of the list, a rewriting pass
  treats the whole list as fixed and stops there. `cat2` is the same concatenation with its two operands as plain arguments
  and a witness about the two tags only, so the pass goes on into the operands. `read_stretch` is the one-pass reading of a
  stretch with that folding added.
-/
import Idealize.ShloMosaic.Lib.StableHlo.Run

noncomputable section

namespace Idealize.ShloMosaic

/-- The concatenation of two vectors along axis `a` of `t`, its operands as arguments. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A printed two-operand concatenation is `cat2` of its operands. -/
theorem concatenate_two {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

namespace StableHlo

/-- One pass over a stretch's fold at a buffer: each operation's result at its own buffer becomes its function's value, at any
    other buffer what was there (the buffers' inequality decided), and a two-operand concatenation is folded to `cat2` so that
    the pass reads its operands too. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic

end
-- ==== Proof.RefRunFacts1.lean ====
/-
  What the first stretch leaves.

  From any contents `V`, the first thirty operations leave in `main_v7`, `main_v15` and `main_v23` the normalized first,
  second and third argument: each is the value function of its buffer applied to what `V` holds in that argument. Reading
  the stretch at the buffer gives the ten operations' composed term over the argument; it is the value function unfolded.
-/
import proofs.«178929_j33062658245027_2_alg».proof.Proof.RefRunParts
import proofs.«178929_j33062658245027_2_alg».proof.Proof.RefRead
import proofs.«178929_j33062658245027_2_alg».proof.Proof.LibReadStretch

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After the first stretch `main_v7` holds its value function of `main_arg0`'s contents. -/
theorem stretch1_v7 (V : Valuation τ sig (Elt F)) :
    after stretch1 V (Proc.devRef .tc main_v7) = val_main_v7 (F := F) (V (Proc.devRef .tc main_arg0)) := by
  read_stretch
  rfl

/-- After the first stretch `main_v15` holds its value function of `main_arg1`'s contents. -/
theorem stretch1_v15 (V : Valuation τ sig (Elt F)) :
    after stretch1 V (Proc.devRef .tc main_v15) = val_main_v15 (F := F) (V (Proc.devRef .tc main_arg1)) := by
  read_stretch
  rfl

/-- After the first stretch `main_v23` holds its value function of `main_arg2`'s contents. -/
theorem stretch1_v23 (V : Valuation τ sig (Elt F)) :
    after stretch1 V (Proc.devRef .tc main_v23) = val_main_v23 (F := F) (V (Proc.devRef .tc main_arg2)) := by
  read_stretch
  rfl

end Cert.ReferenceIdeal.HandRun

end
-- ==== Proof.RefRunFacts2.lean ====
/-
  What the second stretch leaves.

  Started from contents `W` that hold, in `main_v7`, `main_v15` and `main_v23`, the normalized arguments (as value functions
  of `x0`, `x1`, `x2`), operations 30–40 leave the two row-wise inner products in `main_v25` and `main_v27` and the row mask
  in `main_v31`, each its value function of `x0`, `x1`, `x2`. Reading the stretch at the buffer gives a term of a few
  operations over `W` at the three buffers; the hypotheses turn those into value functions and the rest is unfolding.
-/
import proofs.«178929_j33062658245027_2_alg».proof.Proof.RefRunParts
import proofs.«178929_j33062658245027_2_alg».proof.Proof.RefRead
import proofs.«178929_j33062658245027_2_alg».proof.Proof.LibReadStretch

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After the second stretch `main_v25` holds the row-wise inner product of the first two normalized arguments. -/
theorem stretch2_v25 (W : Valuation τ sig (Elt F)) (x0 x1 : (⟨S524288x128, .f32⟩ : BufTy).Contents (Elt F))
    (h7 : W (Proc.devRef .tc main_v7) = val_main_v7 (F := F) x0)
    (h15 : W (Proc.devRef .tc main_v15) = val_main_v15 (F := F) x1) :
    after stretch2 W (Proc.devRef .tc main_v25) = val_main_v25 (F := F) x0 x1 := by
  read_stretch
  rw [h7, h15]
  rfl

/-- After the second stretch `main_v27` holds the row-wise inner product of the first and third normalized arguments. -/
theorem stretch2_v27 (W : Valuation τ sig (Elt F)) (x0 x2 : (⟨S524288x128, .f32⟩ : BufTy).Contents (Elt F))
    (h7 : W (Proc.devRef .tc main_v7) = val_main_v7 (F := F) x0)
    (h23 : W (Proc.devRef .tc main_v23) = val_main_v23 (F := F) x2) :
    after stretch2 W (Proc.devRef .tc main_v27) = val_main_v27 (F := F) x0 x2 := by
  read_stretch
  rw [h7, h23]
  rfl

/-- After the second stretch `main_v31` holds the row mask. -/
theorem stretch2_v31 (W : Valuation τ sig (Elt F)) (x0 x1 x2 : (⟨S524288x128, .f32⟩ : BufTy).Contents (Elt F))
    (h7 : W (Proc.devRef .tc main_v7) = val_main_v7 (F := F) x0)
    (h15 : W (Proc.devRef .tc main_v15) = val_main_v15 (F := F) x1)
    (h23 : W (Proc.devRef .tc main_v23) = val_main_v23 (F := F) x2) :
    after stretch2 W (Proc.devRef .tc main_v31) = val_main_v31 (F := F) x0 x1 x2 := by
  read_stretch
  rw [h7, h15, h23]
  rfl

end Cert.ReferenceIdeal.HandRun

end
-- ==== Proof.RefRunFacts3.lean ====
/-
  What the third stretch leaves.

  Started from contents `W` holding the second inner product in `main_v27` and the row mask in `main_v31`, operations 41–49
  leave the masked sum in `main_v33` and the mask's count in `main_v35`. The selection is an outlined function: its
  operations move contents between a buffer's own type and the value's type along an equation that is the identity here, so
  the term read at the buffer is the value function's up to those identities.
-/
import proofs.«178929_j33062658245027_2_alg».proof.Proof.RefRunParts
import proofs.«178929_j33062658245027_2_alg».proof.Proof.RefRead
import proofs.«178929_j33062658245027_2_alg».proof.Proof.LibReadStretch

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After the third stretch `main_v33` holds the sum of the second inner product over the masked rows. -/
theorem stretch3_v33 (W : Valuation τ sig (Elt F)) (x0 x1 x2 : (⟨S524288x128, .f32⟩ : BufTy).Contents (Elt F))
    (h31 : W (Proc.devRef .tc main_v31) = val_main_v31 (F := F) x0 x1 x2)
    (h27 : W (Proc.devRef .tc main_v27) = val_main_v27 (F := F) x0 x2) :
    after stretch3 W (Proc.devRef .tc main_v33) = val_main_v33 (F := F) x0 x1 x2 := by
  read_stretch
  rw [h31, h27]
  rfl

/-- After the third stretch `main_v35` holds the number of masked rows. -/
theorem stretch3_v35 (W : Valuation τ sig (Elt F)) (x0 x1 x2 : (⟨S524288x128, .f32⟩ : BufTy).Contents (Elt F))
    (h31 : W (Proc.devRef .tc main_v31) = val_main_v31 (F := F) x0 x1 x2) :
    after stretch3 W (Proc.devRef .tc main_v35) = val_main_v35 (F := F) x0 x1 x2 := by
  read_stretch
  rw [h31]
  rfl

end Cert.ReferenceIdeal.HandRun

end
-- ==== Proof.RefRunFacts4.lean ====
/-
  What the fourth stretch leaves.

  Started from contents `W` holding the two inner products in `main_v25`, `main_v27` and the row mask in `main_v31`,
  operations 50–77 leave in `main_v42` the sum, over the rows outside the mask, of the softplus of the scaled difference of
  the inner products, and in `main_v44` the number of those rows. The softplus and the two selections are outlined
  functions, read as in the third stretch.
-/
import proofs.«178929_j33062658245027_2_alg».proof.Proof.RefRunParts
import proofs.«178929_j33062658245027_2_alg».proof.Proof.RefRead
import proofs.«178929_j33062658245027_2_alg».proof.Proof.LibReadStretch

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After the fourth stretch `main_v42` holds the softplus sum over the rows outside the mask. -/
theorem stretch4_v42 (W : Valuation τ sig (Elt F)) (x0 x1 x2 : (⟨S524288x128, .f32⟩ : BufTy).Contents (Elt F))
    (h31 : W (Proc.devRef .tc main_v31) = val_main_v31 (F := F) x0 x1 x2)
    (h27 : W (Proc.devRef .tc main_v27) = val_main_v27 (F := F) x0 x2)
    (h25 : W (Proc.devRef .tc main_v25) = val_main_v25 (F := F) x0 x1) :
    after stretch4 W (Proc.devRef .tc main_v42) = val_main_v42 (F := F) x0 x1 x2 := by
  read_stretch
  rw [h31, h27, h25]
  rfl

/-- After the fourth stretch `main_v44` holds the number of rows outside the mask. -/
theorem stretch4_v44 (W : Valuation τ sig (Elt F)) (x0 x1 x2 : (⟨S524288x128, .f32⟩ : BufTy).Contents (Elt F))
    (h31 : W (Proc.devRef .tc main_v31) = val_main_v31 (F := F) x0 x1 x2) :
    after stretch4 W (Proc.devRef .tc main_v44) = val_main_v44 (F := F) x0 x1 x2 := by
  read_stretch
  rw [h31]
  rfl

end Cert.ReferenceIdeal.HandRun

end
-- ==== Proof.RefRunFacts5.lean ====
/-
  What the fifth stretch leaves.

  Started from contents `W` holding the two sums in `main_v33`, `main_v42` and the two counts in `main_v35`, `main_v44`,
  operations 78–95 leave the program's result in `main_v54`: each sum replaced by zero when its count is zero, the two
  added, divided by the larger of the total count and one.
-/
import proofs.«178929_j33062658245027_2_alg».proof.Proof.RefRunParts
import proofs.«178929_j33062658245027_2_alg».proof.Proof.RefRead
import proofs.«178929_j33062658245027_2_alg».proof.Proof.LibReadStretch

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- After the fifth stretch `main_v54` holds the program's result. -/
theorem stretch5_v54 (W : Valuation τ sig (Elt F)) (x0 x1 x2 : (⟨S524288x128, .f32⟩ : BufTy).Contents (Elt F))
    (h35 : W (Proc.devRef .tc main_v35) = val_main_v35 (F := F) x0 x1 x2)
    (h33 : W (Proc.devRef .tc main_v33) = val_main_v33 (F := F) x0 x1 x2)
    (h44 : W (Proc.devRef .tc main_v44) = val_main_v44 (F := F) x0 x1 x2)
    (h42 : W (Proc.devRef .tc main_v42) = val_main_v42 (F := F) x0 x1 x2) :
    after stretch5 W (Proc.devRef .tc main_v54) = val_main_v54 (F := F) x0 x1 x2 := by
  read_stretch
  -- open the result's value function down to the four buffers the stretch starts from, and name those by what `W` holds
  -- there: both sides are then the same eighteen operations over the same four contents
  unfold val_main_v54 val_main_v52 val_main_v53 val_main_v50 val_main_v49 val_main_v48 val_main_v47 val_main_v51 val_main_v46
    val_main_v45
  rw [← h35, ← h33, ← h44, ← h42]
  rfl

end Cert.ReferenceIdeal.HandRun

end
-- ==== Proof.ReferenceRun.lean ====
/-
  The reference program's run.

  The reference's @main is a straight line of 96 host operations. Every weakly fair execution of it terminates with each
  buffer at the fold of the operations' results over the launch contents. This module reads that fold at the result buffer:
  the line is the concatenation of five stretches, the fold over a concatenation is the fold over the later stretch from
  what the earlier one leaves, and each stretch leaves, in the few buffers that later operations read, the value functions of
  those buffers applied to the arguments, while a buffer it does not write keeps what it held. Chaining the five gives the
  result buffer as its value function of the three arguments' launch contents. No stretch writes an argument buffer, so the
  arguments end as they began.
-/
import proofs.«178929_j33062658245027_2_alg».proof.Proof.RefOps
import proofs.«178929_j33062658245027_2_alg».proof.Proof.RefRead
import proofs.«178929_j33062658245027_2_alg».proof.Proof.LibFoldAppend
import proofs.«178929_j33062658245027_2_alg».proof.Proof.RefRunParts
import proofs.«178929_j33062658245027_2_alg».proof.Proof.RefRunKeeps
import proofs.«178929_j33062658245027_2_alg».proof.Proof.RefRunFacts1
import proofs.«178929_j33062658245027_2_alg».proof.Proof.RefRunFacts2
import proofs.«178929_j33062658245027_2_alg».proof.Proof.RefRunFacts3
import proofs.«178929_j33062658245027_2_alg».proof.Proof.RefRunFacts4
import proofs.«178929_j33062658245027_2_alg».proof.Proof.RefRunFacts5
import Idealize.ShloMosaic.Lib.StableHlo.Run

noncomputable section

namespace Cert.ReferenceIdeal.HandRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-- The line of 96 operations is the five stretches one after the other. -/
theorem ops_split :
    (ops : List (HloOp τ sig (Elt F))) = stretch1 ++ (stretch2 ++ (stretch3 ++ (stretch4 ++ stretch5))) := rfl

/-- The contents after the whole line are the contents after the fifth stretch from those after the fourth, and so on down
    to the first from the start. -/
theorem after_ops (V : Valuation τ sig (Elt F)) :
    after ops V = after stretch5 (after stretch4 (after stretch3 (after stretch2 (after stretch1 V)))) := by
  rw [ops_split, after_append, after_append, after_append, after_append]

/-- After the whole line the result buffer holds its value function of the three arguments' contents at the start. -/
theorem value (V : Valuation τ sig (Elt F)) :
    after ops V (Proc.devRef .tc main_v54)
      = val_main_v54 (F := F) (V (Proc.devRef .tc main_arg0)) (V (Proc.devRef .tc main_arg1)) (V (Proc.devRef .tc main_arg2)) := by
  rw [after_ops]
  -- the first stretch: the three normalized arguments
  have a7 := stretch1_v7 V
  have a15 := stretch1_v15 V
  have a23 := stretch1_v23 V
  -- the second: the two inner products and the mask
  have b25 := stretch2_v25 (after stretch1 V) _ _ a7 a15
  have b27 := stretch2_v27 (after stretch1 V) _ _ a7 a23
  have b31 := stretch2_v31 (after stretch1 V) _ _ _ a7 a15 a23
  -- the third: the masked sum and count; the inner products and the mask are kept
  have c33 := stretch3_v33 (after stretch2 (after stretch1 V)) _ _ _ b31 b27
  have c35 := stretch3_v35 (after stretch2 (after stretch1 V)) _ _ _ b31
  have c25 := (stretch3_keep (after stretch2 (after stretch1 V)) main_v25 (by decide)).trans b25
  have c27 := (stretch3_keep (after stretch2 (after stretch1 V)) main_v27 (by decide)).trans b27
  have c31 := (stretch3_keep (after stretch2 (after stretch1 V)) main_v31 (by decide)).trans b31
  -- the fourth: the softplus sum and count over the other rows; the masked sum and count are kept
  have d42 := stretch4_v42 (after stretch3 (after stretch2 (after stretch1 V))) _ _ _ c31 c27 c25
  have d44 := stretch4_v44 (after stretch3 (after stretch2 (after stretch1 V))) _ _ _ c31
  have d33 := (stretch4_keep (after stretch3 (after stretch2 (after stretch1 V))) main_v33 (by decide)).trans c33
  have d35 := (stretch4_keep (after stretch3 (after stretch2 (after stretch1 V))) main_v35 (by decide)).trans c35
  -- the fifth: the result
  exact stretch5_v54 (after stretch4 (after stretch3 (after stretch2 (after stretch1 V)))) _ _ _ d35 d33 d44 d42

/-- No operation of the line writes `main_arg0`. -/
theorem keep_arg0 (V : Valuation τ sig (Elt F)) :
    after (ops (F := F)) V (Proc.devRef .tc main_arg0) = V (Proc.devRef .tc main_arg0) := by
  rw [after_ops]
  exact (stretch5_keep (after stretch4 (after stretch3 (after stretch2 (after stretch1 V)))) main_arg0 (by decide)).trans
    ((stretch4_keep (after stretch3 (after stretch2 (after stretch1 V))) main_arg0 (by decide)).trans
      ((stretch3_keep (after stretch2 (after stretch1 V)) main_arg0 (by decide)).trans
        ((stretch2_keep (after stretch1 V) main_arg0 (by decide)).trans
          (stretch1_keep V main_arg0 (by decide)))))

/-- No operation of the line writes `main_arg1`. -/
theorem keep_arg1 (V : Valuation τ sig (Elt F)) :
    after (ops (F := F)) V (Proc.devRef .tc main_arg1) = V (Proc.devRef .tc main_arg1) := by
  rw [after_ops]
  exact (stretch5_keep (after stretch4 (after stretch3 (after stretch2 (after stretch1 V)))) main_arg1 (by decide)).trans
    ((stretch4_keep (after stretch3 (after stretch2 (after stretch1 V))) main_arg1 (by decide)).trans
      ((stretch3_keep (after stretch2 (after stretch1 V)) main_arg1 (by decide)).trans
        ((stretch2_keep (after stretch1 V) main_arg1 (by decide)).trans
          (stretch1_keep V main_arg1 (by decide)))))

/-- No operation of the line writes `main_arg2`. -/
theorem keep_arg2 (V : Valuation τ sig (Elt F)) :
    after (ops (F := F)) V (Proc.devRef .tc main_arg2) = V (Proc.devRef .tc main_arg2) := by
  rw [after_ops]
  exact (stretch5_keep (after stretch4 (after stretch3 (after stretch2 (after stretch1 V)))) main_arg2 (by decide)).trans
    ((stretch4_keep (after stretch3 (after stretch2 (after stretch1 V))) main_arg2 (by decide)).trans
      ((stretch3_keep (after stretch2 (after stretch1 V)) main_arg2 (by decide)).trans
        ((stretch2_keep (after stretch1 V) main_arg2 (by decide)).trans
          (stretch1_keep V main_arg2 (by decide)))))

/-- No operation of the line writes `main_arg3`. -/
theorem keep_arg3 (V : Valuation τ sig (Elt F)) :
    after (ops (F := F)) V (Proc.devRef .tc main_arg3) = V (Proc.devRef .tc main_arg3) := by
  rw [after_ops]
  exact (stretch5_keep (after stretch4 (after stretch3 (after stretch2 (after stretch1 V)))) main_arg3 (by decide)).trans
    ((stretch4_keep (after stretch3 (after stretch2 (after stretch1 V))) main_arg3 (by decide)).trans
      ((stretch3_keep (after stretch2 (after stretch1 V)) main_arg3 (by decide)).trans
        ((stretch2_keep (after stretch1 V) main_arg3 (by decide)).trans
          (stretch1_keep V main_arg3 (by decide)))))

/-- No operation of the line writes `main_arg4`. -/
theorem keep_arg4 (V : Valuation τ sig (Elt F)) :
    after (ops (F := F)) V (Proc.devRef .tc main_arg4) = V (Proc.devRef .tc main_arg4) := by
  rw [after_ops]
  exact (stretch5_keep (after stretch4 (after stretch3 (after stretch2 (after stretch1 V)))) main_arg4 (by decide)).trans
    ((stretch4_keep (after stretch3 (after stretch2 (after stretch1 V))) main_arg4 (by decide)).trans
      ((stretch3_keep (after stretch2 (after stretch1 V)) main_arg4 (by decide)).trans
        ((stretch2_keep (after stretch1 V) main_arg4 (by decide)).trans
          (stretch1_keep V main_arg4 (by decide)))))

/-- No operation of the line writes `main_arg5`. -/
theorem keep_arg5 (V : Valuation τ sig (Elt F)) :
    after (ops (F := F)) V (Proc.devRef .tc main_arg5) = V (Proc.devRef .tc main_arg5) := by
  rw [after_ops]
  exact (stretch5_keep (after stretch4 (after stretch3 (after stretch2 (after stretch1 V)))) main_arg5 (by decide)).trans
    ((stretch4_keep (after stretch3 (after stretch2 (after stretch1 V))) main_arg5 (by decide)).trans
      ((stretch3_keep (after stretch2 (after stretch1 V)) main_arg5 (by decide)).trans
        ((stretch2_keep (after stretch1 V) main_arg5 (by decide)).trans
          (stretch1_keep V main_arg5 (by decide)))))

/-- On every device, for any float values, from any memory with zero counters: every weakly fair execution of @main
    terminates with the result buffer at its value function of the three arguments' launch contents, and the six argument
    buffers unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v54)
          = val_main_v54 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v54).trans (value (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c))⟩)
    (run_seq scopedRefs_eq scopedSems_eq defs main (fun _ => ops) main_eq (fun _ => ops_sub) m ρ)

end Cert.ReferenceIdeal.HandRun

end
-- ==== Proof.LibCosine.lean ====
/-
  The cosine of two rows, each normalised first or the pair normalised last.

  For a row `x` of real numbers and a positive real clamp `c`, write `ℓ(x) = max (sqrt (∑ₖ xₖ²)) c` for the row's
  clamped length: it is a positive real number. Dividing every entry by its own row's clamped length and then summing
  the products gives what dividing the sum of the products by the product of the two lengths gives,
  `∑ₖ (xₖ / ℓ(x)) · (yₖ / ℓ(y)) = (∑ₖ xₖ yₖ) / (ℓ(x) · ℓ(y))`: over the reals `(a/s)(b/t) = ab/(st)`, and the common
  factor `1/(st)` comes out of the finite sum. General lemmas; nothing here mentions a program.
-/
import Idealize.ShloMosaic.PureOps.Ideal
import Idealize.ShloMosaic.PureOps.Ideal.Laws

noncomputable section

open scoped BigOperators

namespace Cert.Lib.Cosine

open Idealize.ShloMosaic

/-- A row's length, clamped below by `c`. -/
def clampLen {n : ℕ} (c : EReal) (x : Fin n → EReal) : EReal := max (Ideal.sqrt (∑ k, x k * x k)) c

/-- The coercion of the reals into the extended reals commutes with a finite sum. -/
theorem coe_sum {ι : Type} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- The sum of the products of two rows of real numbers is the real sum of the real products. -/
theorem sum_mul_coe {n : ℕ} (a b : Fin n → ℝ) :
    (∑ k, ((a k : ℝ) : EReal) * ((b k : ℝ) : EReal)) = ((∑ k, a k * b k : ℝ) : EReal) := by
  rw [coe_sum]
  exact Finset.sum_congr rfl fun k _ => (EReal.coe_mul _ _).symm

/-- The clamped length of a row of real numbers, under a positive real clamp, is a positive real number. -/
theorem clampLen_pos_real {n : ℕ} {c : EReal} (hc : ∃ e : ℝ, 0 < e ∧ c = (e : EReal)) {x : Fin n → EReal}
    (hx : ∀ k, ∃ r : ℝ, x k = (r : EReal)) : ∃ s : ℝ, 0 < s ∧ clampLen c x = (s : EReal) := by
  obtain ⟨e, he, rfl⟩ := hc
  choose a ha using hx
  have hsum : (∑ k, x k * x k) = ((∑ k, a k * a k : ℝ) : EReal) := by
    rw [← sum_mul_coe]
    exact Finset.sum_congr rfl fun k _ => by rw [ha k]
  have hnn : ¬ (∑ k, a k * a k) < 0 := not_lt.mpr (Finset.sum_nonneg fun k _ => mul_self_nonneg _)
  refine ⟨max (Real.sqrt (∑ k, a k * a k)) e, lt_max_of_lt_right he, ?_⟩
  rw [clampLen, hsum, Ideal.sqrt_coe, if_neg hnn]
  exact (EReal.coe_strictMono.monotone.map_max).symm

/-- Over positive real lengths `s`, `t`: the sum of the products of the entries each divided by its row's length is
    the sum of the products divided by the product of the lengths. -/
theorem sum_div_mul_div {n : ℕ} (x y : Fin n → EReal) (hx : ∀ k, ∃ r : ℝ, x k = (r : EReal))
    (hy : ∀ k, ∃ r : ℝ, y k = (r : EReal)) {s t : ℝ} (hs : 0 < s) (ht : 0 < t) :
    ∑ k, Ideal.div (x k) (s : EReal) * Ideal.div (y k) (t : EReal)
      = Ideal.div (∑ k, x k * y k) ((s : EReal) * (t : EReal)) := by
  choose a ha using hx
  choose b hb using hy
  have hs' : s ≠ 0 := hs.ne'
  have ht' : t ≠ 0 := ht.ne'
  have hst : s * t ≠ 0 := mul_ne_zero hs' ht'
  have hR : (∑ k, x k * y k) = ((∑ k, a k * b k : ℝ) : EReal) := by
    rw [← sum_mul_coe]
    exact Finset.sum_congr rfl fun k _ => by rw [ha k, hb k]
  have hL : ∀ k, Ideal.div (x k) (s : EReal) * Ideal.div (y k) (t : EReal)
      = (((a k * (1 / s)) * (b k * (1 / t)) : ℝ) : EReal) := fun k => by
    rw [Ideal.div_coe hs', Ideal.div_coe ht', ha k, hb k, ← EReal.coe_mul, ← EReal.coe_mul, ← EReal.coe_mul]
  rw [← EReal.coe_mul, Ideal.div_coe hst, hR, ← EReal.coe_mul, Finset.sum_congr rfl fun k _ => hL k, ← coe_sum,
    Finset.sum_mul]
  refine congrArg (fun r : ℝ => (r : EReal)) (Finset.sum_congr rfl fun k _ => ?_)
  field_simp

/-- The cosine of two rows of real numbers under a positive real clamp: normalising each row first and normalising the
    dot product last agree. -/
theorem cosine_unit_eq {n : ℕ} {c : EReal} (hc : ∃ e : ℝ, 0 < e ∧ c = (e : EReal)) (x y : Fin n → EReal)
    (hx : ∀ k, ∃ r : ℝ, x k = (r : EReal)) (hy : ∀ k, ∃ r : ℝ, y k = (r : EReal)) :
    ∑ k, Ideal.div (x k) (clampLen c x) * Ideal.div (y k) (clampLen c y)
      = Ideal.div (∑ k, x k * y k) (clampLen c x * clampLen c y) := by
  obtain ⟨s, hs, es⟩ := clampLen_pos_real hc hx
  obtain ⟨t, ht, et⟩ := clampLen_pos_real hc hy
  rw [es, et]
  exact sum_div_mul_div x y hx hy hs ht

/-- The float word nearest the decimal 1e-12 is a positive real number. -/
theorem ofBits_eps : ∃ r : ℝ, 0 < r ∧ Ideal.ofBits .f32 0x2B8CBCCC#32 = (r : EReal) := by
  refine ⟨(9223372 : ℝ) * (2 ^ 63)⁻¹, by positivity, ?_⟩
  simp [Ideal.ofBits, Ideal.ieee]

end Cert.Lib.Cosine

end
-- ==== Proof.ReferenceTerms.lean ====
/-
  Three facts about the terms of the loss, none of which mentions a program.

  On rows of real numbers the two forms of the cosine agree: each row's clamped length is a positive real (the clamp ε is
  one), so dividing entry by entry before the sum and dividing the dot product after it give the same number. The
  stable form of `log (1 + eˣ)` written with `−|x|` as a negation is the one written with `0 − |x|`. And the complement
  of a one-bit flag is the flag with its bit flipped.
-/
import proofs.«178929_j33062658245027_2_alg».proof.Proof.LossSpec
import proofs.«178929_j33062658245027_2_alg».proof.Proof.LibCosine

noncomputable section

namespace Cert.RefLoss

open Idealize.ShloMosaic Cert.Loss

/-- On rows of real numbers, normalising each row first gives the cosine. -/
theorem cosineOfUnit_eq_cosine (x y : Row) (hx : ∀ k, ∃ r : ℝ, x k = (r : EReal)) (hy : ∀ k, ∃ r : ℝ, y k = (r : EReal)) :
    cosineOfUnit x y = cosine x y :=
  Cert.Lib.Cosine.cosine_unit_eq (c := eps) Cert.Lib.Cosine.ofBits_eps x y hx hy

/-- The stable form of `log (1 + eᶻ)` with the absolute value negated is the one with it subtracted from zero. -/
theorem softplus_neg (z : EReal) :
    Scalar.select (Ideal.cmp .une (z - 0) (z - 0)) (z + 0)
        (max z 0 + Ideal.log1p (Ideal.exp (-(max (z - 0) (-(z - 0))))))
      = softplus z := by
  unfold softplus
  rw [show ∀ w : EReal, (0 : EReal) - w = -w from fun w => by rw [sub_eq_add_neg, zero_add]]
  rfl

/-- The complement of a one-bit flag is the flag with its bit flipped. -/
theorem not_eq_xor_one (b : BitVec 1) : ~~~b = b ^^^ 1#1 := by revert b; decide

end Cert.RefLoss

end
-- ==== Proof.ReferenceRow.lean ====
/-
  The reference's normalised entries.

  The reference sums the squares along each row, keeps the sum as a column, takes the square root, clamps it below by ε,
  broadcasts the column back along the row and divides: read at `(r, k)`, a matrix's normalised entry is the entry over its
  row's clamped length `max (sqrt (∑ₖ xₖ²)) ε`.
-/
import proofs.«178929_j33062658245027_2_alg».proof.Proof.RefRead
import proofs.«178929_j33062658245027_2_alg».proof.Proof.ReferenceTerms

noncomputable section

namespace Cert.RefLoss

open Idealize.ShloMosaic Idealize.ShloMosaic.ValueIdx Cert.ReferenceIdeal Cert.ReferenceIdeal.Read Cert.Loss

/-! ## Where the layout operations read

A row sum kept as a column and broadcast back along the row is read, at `(r, k)`, at row `r`; the entry `k'` of that
row is the matrix's entry `(r, k')`. -/

theorem idx_sq_anchor (r : Fin 524288) (k k' : Fin 128) :
    idx_main_v1 (idx_main_v2 (idx_main_v6 (ix2 r k))) k' = ix2 r k' :=
  funext fun a => Fin.ext (by match a with | ⟨0, _⟩ => rfl | ⟨1, _⟩ => rfl)

theorem idx_sq_positive (r : Fin 524288) (k k' : Fin 128) :
    idx_main_v9 (idx_main_v10 (idx_main_v14 (ix2 r k))) k' = ix2 r k' :=
  funext fun a => Fin.ext (by match a with | ⟨0, _⟩ => rfl | ⟨1, _⟩ => rfl)

theorem idx_sq_negative (r : Fin 524288) (k k' : Fin 128) :
    idx_main_v17 (idx_main_v18 (idx_main_v22 (ix2 r k))) k' = ix2 r k' :=
  funext fun a => Fin.ext (by match a with | ⟨0, _⟩ => rfl | ⟨1, _⟩ => rfl)

theorem idx_pos (r : Fin 524288) (k : Fin 128) : idx_main_v25 (ix1 r) k = ix2 r k :=
  funext fun a => Fin.ext (by match a with | ⟨0, _⟩ => rfl | ⟨1, _⟩ => rfl)

theorem idx_neg (r : Fin 524288) (k : Fin 128) : idx_main_v27 (ix1 r) k = ix2 r k :=
  funext fun a => Fin.ext (by match a with | ⟨0, _⟩ => rfl | ⟨1, _⟩ => rfl)

/-! ## A normalised entry -/

/-- The anchor's entry `(r, k)`, normalised: the entry over its row's clamped length. -/
theorem unit_anchor (A : Mat) (r : Fin 524288) (k : Fin 128) :
    val_main_v7 (F := Ideal) A (ix2 r k) = Ideal.div (A (ix2 r k)) (len (row A r)) := by
  rw [val_main_v7_apply, val_main_v6_apply, val_main_v5_apply, val_main_v3_apply, val_main_v2_apply, val_main_v1_apply,
    val_main_v4_apply, val_main_cst_0_apply, val_main_cst_apply]
  simp only [val_main_v0_apply, idx_sq_anchor, Ideal.hostDivf_def, Ideal.maximumf_def, Ideal.hostUnary_sqrt_def,
    Ideal.ofBits_def, Ideal.mulf_def, Ideal.ofBits_zero_f32, zero_add]
  rfl

/-- The positive's entry `(r, k)`, normalised. -/
theorem unit_positive (X : Mat) (r : Fin 524288) (k : Fin 128) :
    val_main_v15 (F := Ideal) X (ix2 r k) = Ideal.div (X (ix2 r k)) (len (row X r)) := by
  rw [val_main_v15_apply, val_main_v14_apply, val_main_v13_apply, val_main_v11_apply, val_main_v10_apply,
    val_main_v9_apply, val_main_v12_apply, val_main_cst_2_apply, val_main_cst_1_apply]
  simp only [val_main_v8_apply, idx_sq_positive, Ideal.hostDivf_def, Ideal.maximumf_def, Ideal.hostUnary_sqrt_def,
    Ideal.ofBits_def, Ideal.mulf_def, Ideal.ofBits_zero_f32, zero_add]
  rfl

/-- The negative's entry `(r, k)`, normalised. -/
theorem unit_negative (X : Mat) (r : Fin 524288) (k : Fin 128) :
    val_main_v23 (F := Ideal) X (ix2 r k) = Ideal.div (X (ix2 r k)) (len (row X r)) := by
  rw [val_main_v23_apply, val_main_v22_apply, val_main_v21_apply, val_main_v19_apply, val_main_v18_apply,
    val_main_v17_apply, val_main_v20_apply, val_main_cst_4_apply, val_main_cst_3_apply]
  simp only [val_main_v16_apply, idx_sq_negative, Ideal.hostDivf_def, Ideal.maximumf_def, Ideal.hostUnary_sqrt_def,
    Ideal.ofBits_def, Ideal.mulf_def, Ideal.ofBits_zero_f32, zero_add]
  rfl

end Cert.RefLoss

end
-- ==== Proof.ReferenceScore.lean ====
/-
  The reference's two scores of a row.

  The reference multiplies the normalised anchor row entry by entry with the normalised positive (or negative) row and
  sums along the row. Read at row `r` this is the sum over `k` of `(aₖ / len a) · (pₖ / len p)`: the cosine of the two rows
  with each row normalised first, and, for rows of real numbers, their cosine.
-/
import proofs.«178929_j33062658245027_2_alg».proof.Proof.ReferenceRow

noncomputable section

namespace Cert.RefLoss

open Idealize.ShloMosaic Idealize.ShloMosaic.ValueIdx Cert.ReferenceIdeal Cert.ReferenceIdeal.Read Cert.Loss

/-- The reference's positive score of row `r` is the cosine of the anchor and positive rows, each normalised first. -/
theorem pos_unit (A X : Mat) (r : Fin 524288) :
    val_main_v25 (F := Ideal) A X (ix1 r) = cosineOfUnit (row A r) (row X r) := by
  rw [val_main_v25_apply, val_main_cst_5_apply, Ideal.ofBits_def, Ideal.ofBits_zero_f32, zero_add]
  refine Finset.sum_congr rfl fun k _ => ?_
  rw [idx_pos, val_main_v24_apply, unit_anchor, unit_positive]
  rfl

/-- The reference's negative score of row `r`, likewise. -/
theorem neg_unit (A X : Mat) (r : Fin 524288) :
    val_main_v27 (F := Ideal) A X (ix1 r) = cosineOfUnit (row A r) (row X r) := by
  rw [val_main_v27_apply, val_main_cst_6_apply, Ideal.ofBits_def, Ideal.ofBits_zero_f32, zero_add]
  refine Finset.sum_congr rfl fun k _ => ?_
  rw [idx_neg, val_main_v26_apply, unit_anchor, unit_negative]
  rfl

/-- A row of a matrix of real numbers is a row of real numbers. -/
theorem row_real {X : Mat} (hX : ∀ i, ∃ x : ℝ, X i = (x : EReal)) (r : Fin 524288) :
    ∀ k, ∃ x : ℝ, row X r k = (x : EReal) := fun k => hX (ix2 r k)

/-- For matrices of real numbers the reference's positive score of row `r` is the spec's. -/
theorem pos_eq (A X : Mat) (hA : ∀ i, ∃ x : ℝ, A i = (x : EReal)) (hX : ∀ i, ∃ x : ℝ, X i = (x : EReal))
    (r : Fin 524288) : val_main_v25 (F := Ideal) A X (ix1 r) = pos A X r :=
  (pos_unit A X r).trans (cosineOfUnit_eq_cosine _ _ (row_real hA r) (row_real hX r))

/-- For matrices of real numbers the reference's negative score of row `r` is the spec's. -/
theorem neg_eq (A X : Mat) (hA : ∀ i, ∃ x : ℝ, A i = (x : EReal)) (hX : ∀ i, ∃ x : ℝ, X i = (x : EReal))
    (r : Fin 524288) : val_main_v27 (F := Ideal) A X (ix1 r) = neg A X r :=
  (neg_unit A X r).trans (cosineOfUnit_eq_cosine _ _ (row_real hA r) (row_real hX r))

end Cert.RefLoss

end
-- ==== Proof.ReferenceSums.lean ====
/-
  The reference's flag, its two per-row terms and its two float totals.

  With the two scores of row `r` the spec's `pos` and `neg`, the reference's "or" of two comparisons is the spec's `hard`
  flag, its first `where` is `hardTerm`, its `not` is the flag with its bit flipped, its `softplus` of the scaled
  difference under the second `where` is `otherTerm`; and a float sum of a whole `[524288]` array from the zero word is the
  sum over the rows.
-/
import proofs.«178929_j33062658245027_2_alg».proof.Proof.ReferenceScore
import proofs.«178929_j33062658245027_2_alg».proof.Proof.LibIndexSums

noncomputable section

namespace Cert.RefLoss

open Idealize.ShloMosaic Idealize.ShloMosaic.ValueIdx Cert.ReferenceIdeal Cert.ReferenceIdeal.Read Cert.Loss

variable (A P N : Mat) (hA : ∀ i, ∃ x : ℝ, A i = (x : EReal)) (hP : ∀ i, ∃ x : ℝ, P i = (x : EReal))
  (hN : ∀ i, ∃ x : ℝ, N i = (x : EReal))

/-- The stable form of `log (1 + eᶻ)` as the reference's operations compute it is the spec's. -/
theorem softplus_ops (z : Ideal .f32) :
    Scalar.select (FloatOps.cmpf .une (FloatOps.subf z 0) (FloatOps.subf z 0)) (FloatOps.addf z 0)
        (FloatOps.addf (FloatOps.maximumf z 0)
          (FloatOps.hostUnary .log1p (FloatOps.hostUnary .exp (FloatOps.hostNegf (FloatOps.hostAbsf (FloatOps.subf z 0))))))
      = softplus z :=
  softplus_neg z

include hA hP hN

/-- The reference's flag of row `r` is the spec's. -/
theorem hard_eq (r : Fin 524288) :
    val_main_v31 (F := Ideal) A P N (ix1 r) = hard (pos A P r) (neg A N r) := by
  rw [val_main_v31_apply, val_main_v28_apply, val_main_v30_apply, val_main_v29_apply, val_main_cst_7_apply,
    pos_eq A P hA hP r, neg_eq A N hA hN r]
  rfl

/-- What the reference adds to its first total for row `r`. -/
theorem hardTerm_eq (r : Fin 524288) :
    val_main_v32 (F := Ideal) A P N (ix1 r) = hardTerm (pos A P r) (neg A N r) := by
  rw [val_main_v32_apply, hard_eq A P N hA hP hN r, neg_eq A N hA hN r, val_main_call0_v1_apply,
    val_main_call0_v0_apply, val_main_cst_8_apply, Ideal.ofBits_def, Ideal.ofBits_zero_f32]
  rfl

/-- The reference's complemented flag of row `r`. -/
theorem otherFlag_eq (r : Fin 524288) :
    val_main_v36 (F := Ideal) A P N (ix1 r) = hard (pos A P r) (neg A N r) ^^^ 1#1 := by
  rw [val_main_v36_apply, hard_eq A P N hA hP hN r, not_eq_xor_one]

/-- The reference's scaled difference of the two scores of row `r`. -/
theorem scaled_eq (r : Fin 524288) :
    val_main_v39 (F := Ideal) A P N (ix1 r) = Ideal.div (neg A N r - pos A P r) temp := by
  rw [val_main_v39_apply, val_main_v37_apply, val_main_v38_apply, val_main_cst_10_apply, pos_eq A P hA hP r,
    neg_eq A N hA hN r]
  rfl

/-- The reference's `softplus` of the scaled difference of row `r`. -/
theorem softplus_eq (r : Fin 524288) :
    val_main_v40 (F := Ideal) A P N (ix1 r) = softplus (Ideal.div (neg A N r - pos A P r) temp) := by
  rw [val_main_v40_apply, val_main_call1_v4_apply, val_main_call1_v6_apply, val_main_call1_v11_apply,
    val_main_call1_v1_apply, val_main_call1_v10_apply, val_main_call1_v9_apply, val_main_call1_v8_apply,
    val_main_call1_v7_apply, val_main_call1_v3_apply, val_main_call1_v0_apply, val_main_call1_v2_apply,
    val_main_call1_v5_apply, val_main_call1_cst_apply, scaled_eq A P N hA hP hN r, Ideal.ofBits_def,
    Ideal.ofBits_zero_f32]
  exact softplus_ops _

/-- What the reference adds to its second total for row `r`. -/
theorem otherTerm_eq (r : Fin 524288) :
    val_main_v41 (F := Ideal) A P N (ix1 r) = otherTerm (pos A P r) (neg A N r) := by
  rw [val_main_v41_apply, otherFlag_eq A P N hA hP hN r, softplus_eq A P N hA hP hN r, val_main_call2_v1_apply,
    val_main_call2_v0_apply, val_main_cst_11_apply, Ideal.ofBits_def, Ideal.ofBits_zero_f32]
  rfl

/-- The reference's first float total is the spec's. -/
theorem hardSum_eq (i : S_.Idx) : val_main_v33 (F := Ideal) A P N i = hardSum A P N := by
  rw [val_main_v33_apply, val_main_cst_9_apply, Ideal.ofBits_def, Ideal.ofBits_zero_f32, zero_add,
    Cert.Lib.IndexSums.sum_idx1]
  exact Finset.sum_congr rfl fun r _ => hardTerm_eq A P N hA hP hN r

/-- The reference's second float total is the spec's. -/
theorem otherSum_eq (i : S_.Idx) : val_main_v42 (F := Ideal) A P N i = otherSum A P N := by
  rw [val_main_v42_apply, val_main_cst_12_apply, Ideal.ofBits_def, Ideal.ofBits_zero_f32, zero_add,
    Cert.Lib.IndexSums.sum_idx1]
  exact Finset.sum_congr rfl fun r _ => otherTerm_eq A P N hA hP hN r

end Cert.RefLoss

end
-- ==== Proof.LibBitCount.lean ====
/-
  Counting by integers and counting by floats agree.

  A row has 8192 entries, each contributing a bit. Summing the bits as 32-bit integers wraps modulo `2^32`, but a sum
  of fewer than `2^31` zeros and ones never reaches the modulus nor the sign bit, so the wrapped sum read as a signed
  integer is the true count; and the true count as a real is the sum of the bits as reals. So converting the integer sum
  to a float, and summing the bits converted to floats, give one extended real.
-/
import Idealize.ShloMosaic.PureOps.Ideal
import Idealize.ShloMosaic.PureOps.Reduce

noncomputable section

namespace Cert.Lib.BitCount

open Idealize.ShloMosaic

/-- The coercion of the reals into the extended reals commutes with a finite sum. -/
theorem coe_sum {ι : Type} (S : Finset ι) (f : ι → ℝ) :
    ((∑ k ∈ S, f k : ℝ) : EReal) = ∑ k ∈ S, ((f k : ℝ) : EReal) := by
  classical
  induction S using Finset.induction_on with
  | empty => simp
  | insert a S ha ih => rw [Finset.sum_insert ha, Finset.sum_insert ha, EReal.coe_add, ih]

/-- A bit widened to 32 bits, read unsigned, is the bit. -/
theorem toNat_widen (b : BitVec 1) : (b.setWidth 32).toNat = b.toNat := by
  have h : b.toNat < 2 := b.isLt
  rw [BitVec.toNat_setWidth]
  omega

/-- The wrapping 32-bit sum of fewer than `2^32` widened bits, read unsigned, is the number of ones, which is at most
    the number of summands: no step of the sum reaches the modulus. -/
theorem toNat_fold_bits {ι : Type} [DecidableEq ι] (b : ι → BitVec 1) (S : Finset ι) (hS : S.card < 4294967296) :
    (S.fold IntOp.addi 0#32 (fun k => (b k).setWidth 32)).toNat = ∑ k ∈ S, (b k).toNat
      ∧ ∑ k ∈ S, (b k).toNat ≤ S.card := by
  induction S using Finset.induction_on with
  | empty => exact ⟨rfl, le_refl _⟩
  | insert a S ha ih =>
    rw [Finset.card_insert_of_notMem ha] at hS
    obtain ⟨e, le⟩ := ih (by omega)
    have h1 : (b a).toNat < 2 := (b a).isLt
    rw [Finset.fold_insert ha, Finset.sum_insert ha, Finset.card_insert_of_notMem ha]
    refine ⟨?_, by omega⟩
    show ((b a).setWidth 32 + S.fold IntOp.addi 0#32 (fun k => (b k).setWidth 32)).toNat = _
    rw [BitVec.toNat_add, e, toNat_widen]
    norm_num
    omega

/-- So for a row of fewer than `2^31` entries: the 32-bit sum of the widened bits, read SIGNED and as a real, is the sum
    of the widened bits each read signed and as a real. -/
theorem count_eq {n : Nat} (hn : n < 2147483648) (b : Fin n → BitVec 1) :
    ((((Finset.univ : Finset (Fin n)).fold IntOp.addi 0#32 (fun k => (b k).setWidth 32)).toInt : ℝ) : EReal)
      = ∑ k : Fin n, (((((b k).setWidth 32).toInt : ℤ) : ℝ) : EReal) := by
  obtain ⟨e, le⟩ := toNat_fold_bits b Finset.univ (by rw [Finset.card_univ, Fintype.card_fin]; omega)
  rw [Finset.card_univ, Fintype.card_fin] at le
  have hx : ((Finset.univ : Finset (Fin n)).fold IntOp.addi 0#32 (fun k => (b k).setWidth 32)).toInt
      = ((∑ k : Fin n, (b k).toNat : ℕ) : ℤ) := by
    rw [BitVec.toInt_eq_toNat_of_lt (by rw [e]; omega), e]
  have hk : ∀ k : Fin n, ((b k).setWidth 32).toInt = (((b k).toNat : ℕ) : ℤ) := fun k => by
    have h1 : (b k).toNat < 2 := (b k).isLt
    rw [BitVec.toInt_eq_toNat_of_lt (by rw [toNat_widen]; omega), toNat_widen]
  rw [hx]
  simp only [hk]
  push_cast
  exact coe_sum _ _

end Cert.Lib.BitCount

end
-- ==== Proof.LibCountCompare.lean ====
/-
  A count kept in 32-bit integers and the same count kept in reals.

  A reduction by integer addition of a whole `[n]` array into the one-index rank-0 array is the fold of the addition over
  the coordinate `a : Fin n`: every index drops to the one result index. For one-bit flags widened to 32 bits, fewer than
  `2^31` of them, that wrapping total never wraps and never reaches the sign bit, so: the sum of the flags as reals is the
  total read unsigned; the total compares equal to the zero word exactly when the real count is zero; and for two
  families with fewer than `2^31` flags together, the signed maximum with 1 of the sum of the two totals, read signed
  and as a real, is the maximum with 1 of the sum of the two real counts. General lemmas; nothing here mentions a program.
-/
import Idealize.ShloMosaic.PureOps.Ideal
import Idealize.ShloMosaic.PureOps.Reduce
import Idealize.ShloMosaic.Lib.ValueIdx
import proofs.«178929_j33062658245027_2_alg».proof.Proof.LibBitCount
import proofs.«178929_j33062658245027_2_alg».proof.Proof.LibIndexSums

noncomputable section

open scoped BigOperators

namespace Cert.Lib.CountCompare

open Idealize.ShloMosaic Idealize.ShloMosaic.ValueIdx

/-- A rank-0 array has one index. -/
instance : Subsingleton (⟨0, ![]⟩ : Shape).Idx := ⟨fun _ _ => funext fun d => d.elim0⟩

/-- A commutative, associative reduction of a whole `[n]` array into the rank-0 array is the fold over the coordinate. -/
theorem reduce_total_eq_fold {α : Type} {n : ℕ} {u : Shape} (f : α → α → α) [Std.Commutative f] [Std.Associative f]
    (x : (⟨1, ![n]⟩ : Shape).Idx → α) (init : u.Idx → α) (h : (⟨1, ![n]⟩ : Shape).ReducesTo [0] ⟨0, ![]⟩)
    (hu : 0 < u.numel) (j : (⟨0, ![]⟩ : Shape).Idx) :
    Host.reduce f x init h hu j
      = (Finset.univ : Finset (Fin n)).fold f (init (Shape.Idx.first hu)) (fun a => x (ix1 a)) := by
  rw [Host.reduce_eq_fold, Finset.filter_true_of_mem (fun i _ => Subsingleton.elim _ _),
    ← Finset.map_univ_equiv (Cert.Lib.IndexSums.idxEquiv1 (n := n)).symm, Finset.fold_map]
  rfl

/-- The wrapping 32-bit total of a family of one-bit flags, each widened to 32 bits. -/
def total {n : ℕ} (b : Fin n → BitVec 1) : BitVec 32 :=
  (Finset.univ : Finset (Fin n)).fold IntOp.addi 0#32 (fun k => (b k).setWidth 32)

/-- The total of fewer than `2^31` flags, read unsigned, is at most their number. -/
theorem total_le {n : ℕ} (hn : n < 2147483648) (b : Fin n → BitVec 1) : (total b).toNat ≤ n := by
  obtain ⟨e, le⟩ := Cert.Lib.BitCount.toNat_fold_bits b Finset.univ (by rw [Finset.card_univ, Fintype.card_fin]; omega)
  rw [Finset.card_univ, Fintype.card_fin] at le
  unfold total
  omega

/-- The sum of fewer than `2^31` flags, each read as a real, is the total read unsigned. -/
theorem sum_flags {n : ℕ} (hn : n < 2147483648) (b : Fin n → BitVec 1) :
    ∑ k : Fin n, (((((b k).setWidth 32).toInt : ℤ) : ℝ) : EReal) = ((((total b).toNat : ℕ) : ℝ) : EReal) := by
  have le := total_le hn b
  rw [← Cert.Lib.BitCount.count_eq hn b]
  show ((((total b).toInt : ℤ) : ℝ) : EReal) = _
  rw [BitVec.toInt_eq_toNat_of_lt (by omega)]
  norm_cast

/-- A 32-bit word compares equal to the zero word exactly when it is zero read unsigned. -/
theorem cmpi_eq_zero (X : BitVec 32) : IntOp.cmpi .eq X 0#32 = BitVec.ofBool (decide (X.toNat = 0)) := by
  simp only [IntOp.cmpi]
  congr 1
  rw [Bool.eq_iff_iff]
  simp [BitVec.toNat_eq]

/-- The integer total compares equal to zero exactly when the real count is zero. -/
theorem cmpi_total {n : ℕ} (hn : n < 2147483648) (b : Fin n → BitVec 1) :
    IntOp.cmpi .eq (total b) 0#32
      = Ideal.cmp .oeq (∑ k : Fin n, (((((b k).setWidth 32).toInt : ℤ) : ℝ) : EReal)) 0 := by
  have hz : (((((total b).toNat : ℕ) : ℝ) : EReal) = 0) ↔ (total b).toNat = 0 := by
    rw [EReal.coe_eq_zero, Nat.cast_eq_zero]
  rw [sum_flags hn b, cmpi_eq_zero]
  show _ = BitVec.ofBool (decide (((((total b).toNat : ℕ) : ℝ) : EReal) = 0))
  simp only [hz]

/-- The signed maximum with 1 of a non-wrapping sum of two words that are non-negative read signed. -/
theorem toInt_maxsi_addi {n m : ℕ} (h : n + m < 2147483648) (X Y : BitVec 32) (hX : X.toNat ≤ n) (hY : Y.toNat ≤ m) :
    (IntOp.maxsi (IntOp.addi X Y) 1#32).toInt = max ((X.toNat : ℤ) + (Y.toNat : ℤ)) 1 := by
  have hs : (X + Y).toNat = X.toNat + Y.toNat := by rw [BitVec.toNat_add]; omega
  have hi : (X + Y).toInt = (X.toNat : ℤ) + (Y.toNat : ℤ) := by
    rw [BitVec.toInt_eq_toNat_of_lt (by rw [hs]; omega), hs]; push_cast; rfl
  have h1 : (1#32 : BitVec 32).toInt = 1 := by decide
  simp only [IntOp.maxsi, IntOp.addi, BitVec.slt, h1, hi, decide_eq_true_eq]
  split_ifs with hlt
  · rw [hi]; omega
  · rw [h1]; omega

/-- For two families with fewer than `2^31` flags together: the signed maximum with 1 of the sum of the two integer
    totals, read signed and as a real, is the maximum with 1 of the sum of the two real counts. -/
theorem max_total {n m : ℕ} (h : n + m < 2147483648) (b : Fin n → BitVec 1) (b' : Fin m → BitVec 1) :
    ((((IntOp.maxsi (IntOp.addi (total b) (total b')) 1#32).toInt : ℤ) : ℝ) : EReal)
      = max ((∑ k : Fin n, (((((b k).setWidth 32).toInt : ℤ) : ℝ) : EReal))
          + ∑ k : Fin m, (((((b' k).setWidth 32).toInt : ℤ) : ℝ) : EReal)) 1 := by
  have hn : n < 2147483648 := by omega
  have hm : m < 2147483648 := by omega
  rw [sum_flags hn b, sum_flags hm b', toInt_maxsi_addi h _ _ (total_le hn b) (total_le hm b'), ← EReal.coe_add,
    ← EReal.coe_one, ← EReal.coe_strictMono.monotone.map_max]
  norm_cast

end Cert.Lib.CountCompare

end
-- ==== Proof.LibReal.lean ====
/-
  Extended reals that are real numbers: the closure of "is a real number" under the exact operations (sum, product,
  finite sums, the logistic function, a quotient by a non-zero real), the positivity of the logistic function, and the
  real values of a few float words. General lemmas; nothing here mentions a program.
-/
import Idealize.ShloMosaic.PureOps.Ideal
import Idealize.ShloMosaic.PureOps.Ideal.Laws

noncomputable section

open scoped BigOperators

namespace Cert.LibReal

open Idealize.ShloMosaic

/-- An extended real that is (the coercion of) a real number. -/
def IsReal (x : EReal) : Prop := ∃ r : ℝ, x = (r : EReal)

theorem isReal_coe (r : ℝ) : IsReal (r : EReal) := ⟨r, rfl⟩

theorem isReal_zero : IsReal (0 : EReal) := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logistic function of a real number is a real number … -/
theorem IsReal.logistic {x : EReal} (hx : IsReal x) : IsReal (Ideal.logistic x) := by
  obtain ⟨a, rfl⟩ := hx; exact ⟨_, Ideal.logistic_coe a⟩

/-- … and is positive. -/
theorem logistic_pos {x : EReal} (hx : IsReal x) : 0 < Ideal.logistic x := by
  obtain ⟨a, rfl⟩ := hx
  rw [Ideal.logistic_coe]
  have : (0 : ℝ) < (1 + Real.exp (-a))⁻¹ := inv_pos.mpr (by positivity)
  exact_mod_cast this

/-- A quotient of real numbers by a non-zero one is a real number. -/
theorem IsReal.div {x y : EReal} (hx : IsReal x) (hy : IsReal y) (hne : y ≠ 0) : IsReal (Ideal.div x y) := by
  obtain ⟨a, rfl⟩ := hx; obtain ⟨b, rfl⟩ := hy
  have hb : b ≠ 0 := fun h => hne (by rw [h]; rfl)
  rw [Ideal.div_coe hb]
  exact (isReal_coe a).mul (isReal_coe _)

/-- A non-negative real number plus a positive real number is not zero. -/
theorem add_pos_ne_zero {x y : EReal} (hx : 0 ≤ x) (hy : 0 < y) : x + y ≠ 0 :=
  ne_of_gt (lt_of_lt_of_le hy (le_add_of_nonneg_left hx))

/-! ## Float words as real numbers -/

/-- The word of `5.0e4` is the real number 50000. -/
theorem ofBits_50000 : Ideal.ofBits .f32 0x47435000#32 = ((50000 : ℝ) : EReal) := by
  simp [Ideal.ofBits, Ideal.ieee]
  exact_mod_cast (by norm_num : (12800000 : ℝ) * (2 ^ 8)⁻¹ = 50000)

/-- The word of `8.0e5` is the real number 800000. -/
theorem ofBits_800000 : Ideal.ofBits .f32 0x49435000#32 = ((800000 : ℝ) : EReal) := by
  simp [Ideal.ofBits, Ideal.ieee]
  exact_mod_cast (by norm_num : (12800000 : ℝ) * (2 ^ 4)⁻¹ = 800000)

/-- The word of `1.0` is one. -/
theorem ofBits_one : Ideal.ofBits .f32 0x3F800000#32 = (1 : EReal) := by
  simp [Ideal.ofBits, Ideal.ieee]
  exact_mod_cast (by norm_num : (8388608 : ℝ) * (2 ^ 23)⁻¹ = 1)

/-- The word nearest the decimal 1e-6 is a positive real number. -/
theorem ofBits_epsGate : ∃ r : ℝ, 0 < r ∧ Ideal.ofBits .f32 0x358637BD#32 = (r : EReal) := by
  refine ⟨(8796093 : ℝ) * (2 ^ 43)⁻¹, by positivity, ?_⟩
  simp [Ideal.ofBits, Ideal.ieee]

end Cert.LibReal

end
-- ==== Proof.ReferenceCounts.lean ====
/-
  The reference's two counts.

  The reference counts the flagged rows, and the unflagged ones, in 32-bit integers: each flag widened to 32 bits, the
  whole `[524288]` array reduced by integer addition from 0. With 524288 rows (and 1048576 for the two counts together)
  nothing wraps, so the integer count compares equal to 0 exactly when the spec's real count is 0, and the signed maximum
  with 1 of the sum of the two integer counts, converted to a float, is the maximum with 1.0 of the sum of the two real
  counts.
-/
import proofs.«178929_j33062658245027_2_alg».proof.Proof.ReferenceSums
import proofs.«178929_j33062658245027_2_alg».proof.Proof.LibCountCompare
import proofs.«178929_j33062658245027_2_alg».proof.Proof.LibReal

noncomputable section

namespace Cert.RefLoss

open Idealize.ShloMosaic Idealize.ShloMosaic.ValueIdx Cert.ReferenceIdeal Cert.ReferenceIdeal.Read Cert.Loss
open Cert.Lib.CountCompare (total)

variable (A P N : Mat) (hA : ∀ i, ∃ x : ℝ, A i = (x : EReal)) (hP : ∀ i, ∃ x : ℝ, P i = (x : EReal))
  (hN : ∀ i, ∃ x : ℝ, N i = (x : EReal))

include hA hP hN

/-- The reference's first integer count is the 32-bit total of the flags. -/
theorem hardTotal_eq (i : S_.Idx) :
    val_main_v35 (F := Ideal) A P N i = total fun r : Fin 524288 => hard (pos A P r) (neg A N r) := by
  have hf : (fun a : Fin 524288 => val_main_v34 (F := Ideal) A P N (ix1 a))
      = fun r => (hard (pos A P r) (neg A N r)).setWidth 32 :=
    funext fun a => by rw [val_main_v34_apply, hard_eq A P N hA hP hN a]
  unfold val_main_v35
  rw [Cert.Lib.CountCompare.reduce_total_eq_fold, hf]
  rfl

/-- The reference's second integer count is the 32-bit total of the flipped flags. -/
theorem otherTotal_eq (i : S_.Idx) :
    val_main_v44 (F := Ideal) A P N i = total fun r : Fin 524288 => hard (pos A P r) (neg A N r) ^^^ 1#1 := by
  have hf : (fun a : Fin 524288 => val_main_v43 (F := Ideal) A P N (ix1 a))
      = fun r => (hard (pos A P r) (neg A N r) ^^^ 1#1).setWidth 32 :=
    funext fun a => by rw [val_main_v43_apply, otherFlag_eq A P N hA hP hN a]
  unfold val_main_v44
  rw [Cert.Lib.CountCompare.reduce_total_eq_fold, hf]
  rfl

/-- The first integer count is zero exactly when the spec's first count is. -/
theorem hardCount_cmp (i : S_.Idx) :
    val_main_v45 (F := Ideal) A P N i = Ideal.cmp .oeq (hardCount A P N) 0 := by
  rw [val_main_v45_apply, hardTotal_eq A P N hA hP hN i, val_main_c_14_apply,
    Cert.Lib.CountCompare.cmpi_total (n := 524288) (by norm_num)]
  rfl

/-- The second integer count is zero exactly when the spec's second count is. -/
theorem otherCount_cmp (i : S_.Idx) :
    val_main_v47 (F := Ideal) A P N i = Ideal.cmp .oeq (otherCount A P N) 0 := by
  rw [val_main_v47_apply, otherTotal_eq A P N hA hP hN i, val_main_c_16_apply,
    Cert.Lib.CountCompare.cmpi_total (n := 524288) (by norm_num)]
  rfl

/-- The divisor: the two integer counts added, clamped below by 1, converted to a float. -/
theorem divisor_eq (i : S_.Idx) :
    val_main_v53 (F := Ideal) A P N i = max (hardCount A P N + otherCount A P N) one := by
  rw [val_main_v53_apply, val_main_v50_apply, val_main_v49_apply, hardTotal_eq A P N hA hP hN i,
    otherTotal_eq A P N hA hP hN i, val_main_c_18_apply]
  show ((((IntOp.maxsi (IntOp.addi (total _) (total _)) 1#32).toInt : ℤ) : ℝ) : EReal) = _
  rw [Cert.Lib.CountCompare.max_total (n := 524288) (m := 524288) (by norm_num), one, Cert.LibReal.ofBits_one]
  rfl

end Cert.RefLoss

end
-- ==== Proof.ReferenceLoss.lean ====
/-
  The reference computes the loss.

  Its last operations divide `S₂' + 1.0 · S₁'` by the clamped total count, where each `Sᵢ'` is the float total `Sᵢ` unless its
  integer count is zero, and then the zero word. With the totals, the two "count is zero" flags and the divisor each
  identified with the spec's, that is the spec's `combine` of the four totals: the loss, at the result's one index.
-/
import proofs.«178929_j33062658245027_2_alg».proof.Proof.ReferenceCounts

noncomputable section

namespace Cert.RefLoss

open Idealize.ShloMosaic Idealize.ShloMosaic.ValueIdx Cert.ReferenceIdeal Cert.ReferenceIdeal.Read Cert.Loss

/-- For matrices of real numbers the reference's result is the loss, at its one index. -/
theorem reference_eq (A P N : (⟨Cert.ReferenceIdeal.S524288x128, .f32⟩ : BufTy).Contents (Elt Ideal))
    (hA : ∀ i, ∃ x : ℝ, A i = (x : EReal)) (hP : ∀ i, ∃ x : ℝ, P i = (x : EReal))
    (hN : ∀ i, ∃ x : ℝ, N i = (x : EReal)) :
    Cert.ReferenceIdeal.Read.val_main_v54 (F := Ideal) A P N = fun _ => Cert.Loss.loss A P N := by
  funext i
  rw [val_main_v54_apply, val_main_v52_apply, val_main_v48_apply, val_main_v51_apply, val_main_v46_apply,
    divisor_eq A P N hA hP hN i, otherCount_cmp A P N hA hP hN i, hardCount_cmp A P N hA hP hN i,
    otherSum_eq A P N hA hP hN i, hardSum_eq A P N hA hP hN i, val_main_call4_v0_apply, val_main_cst_17_apply,
    val_main_call3_v0_apply, val_main_cst_15_apply, val_main_cst_19_apply]
  simp only [Ideal.ofBits_def, Ideal.ofBits_zero_f32]
  rfl

end Cert.RefLoss

end
-- ==== Proof.FiniteInputs.lean ====
/-
  From the precondition to real entries.

  The precondition is the conjunction, over the three matrices, of "every entry's absolute value is below +∞". An
  extended real whose absolute value `max x (−x)` is below +∞ is neither infinity, so it is a real number; a conjunction
  of one-bit words that is 1 has every conjunct 1; and an "all" over an array that is 1 has a 1 at every index.
-/
import proofs.«178929_j33062658245027_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic

/-- A rank-0 array has one index. -/
instance : Subsingleton Cert.Pre_finite_inputs.S_.Idx := ⟨fun _ _ => funext fun d => d.elim0⟩

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- Under the precondition every entry of the three matrices is a real number. -/
theorem real_of_pre [Cert.Pre_finite_inputs.Facts]
    {a0 a1 a2 : FVec Ideal Cert.Pre_finite_inputs.S524288x128 .f32}
    {a3 a4 a5 : IVec Cert.Pre_finite_inputs.S524288 32}
    (h : Cert.Pre_finite_inputs.fn (F := Ideal) a0 a1 a2 a3 a4 a5 = fun _ => 1#1) :
    (∀ i, ∃ x : ℝ, a0 i = (x : EReal)) ∧ (∀ i, ∃ x : ℝ, a1 i = (x : EReal)) ∧ (∀ i, ∃ x : ℝ, a2 i = (x : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.FiniteInputs

end
-- ==== Proof.lean ====
/-
  Two programs computing one triplet-style loss over three 524288 × 128 matrices (anchor, positive, negative) are proved
  to return the same number over the extended reals, under the precondition that every matrix entry is finite.

  THE QUANTITY (`Cert.Loss.loss`, Proof/LossSpec.lean). Per row: the three clamped lengths `max (sqrt (∑ x²)) ε`, the two
  cosines `pos` (anchor, positive) and `neg` (anchor, negative), the flag "hard" (`neg > pos` or `neg > 0.8`). Over all
  rows: the sum of `neg` over the hard rows, the sum of `softplus ((neg − pos) / 0.1)` over the others, and the two counts.
  At the end each sum is replaced by zero when its count is zero, and `(second + 1 · first) / max (count₁ + count₂) 1`.

  THE KERNEL's program runs a grid of 2 cores × 32 steps, each step on a block of 8192 rows. It keeps four running numbers
  per core, reset at the core's first step, each step adding its block's totals (Proof/KernelRows.lean reads the block's
  arithmetic row by row; KernelPieces.lean reads what each of the three cases of the body leaves; KernelAccum.lean shows by
  induction on the step that the running numbers are the sums of the block totals so far). At a core's last step the four
  numbers are laid in lanes 0 to 3 of that core's row of a [2, 1, 128] array (KernelLanes.lean, KernelArray.lean); the lines
  after the kernel add the two rows lane by lane and apply the last step (KernelTail.lean). Regrouping the sums —
  2 × 32 steps, 64 × 8192 rows — gives the totals over all rows (KernelTotals.lean, KernelValue.lean). Sums over the
  extended reals are regrouped freely, so this side uses no finiteness.

  THE REFERENCE normalises each row first and takes dot products of the unit rows, so its cosines are
  `∑ (aₖ / len a)(pₖ / len p)`; for REAL entries each length is a positive real (the clamp ε is one) and this is
  `(∑ aₖ pₖ) / (len a · len p)`: here, and only here, the precondition is used (FiniteInputs.lean turns it into "every entry
  is a real"). It counts with 32-bit integers where the kernel counts with floats: a count of at most 524288 flags does not
  wrap, so the integer count converted is the float sum of the flags, zero exactly when it is zero (ReferenceLoss.lean and
  its modules). Its run is read one stretch of operations at a time (ReferenceRun.lean).

  The frames of the two kernel programs are the generated frame certificates; the reference's frame is its run with the
  result dropped. Nothing was rewritten by the ideal pass, so `preserves` asks nothing.
-/
import proofs.«178929_j33062658245027_2_alg».proof.Defs
import proofs.«178929_j33062658245027_2_alg».proof.Proof.Gen.Kernel
import proofs.«178929_j33062658245027_2_alg».proof.Proof.Gen.Kernel.Frame
import proofs.«178929_j33062658245027_2_alg».proof.Proof.Gen.KernelIdeal
import proofs.«178929_j33062658245027_2_alg».proof.Proof.Gen.KernelIdeal.Frame
import proofs.«178929_j33062658245027_2_alg».proof.Proof.Gen.ReferenceIdeal
import proofs.«178929_j33062658245027_2_alg».proof.Proof.Gen.Pre_finite_inputs
import proofs.«178929_j33062658245027_2_alg».proof.Proof.KernelValue
import proofs.«178929_j33062658245027_2_alg».proof.Proof.ReferenceRun
import proofs.«178929_j33062658245027_2_alg».proof.Proof.ReferenceLoss
import proofs.«178929_j33062658245027_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.HandRun.run m ρ)

theorem preserves : Cert.preserves_Kernel_KernelIdeal := trivial

/-- Both runs end at the specification's loss of the argument matrices: the kernel's always, the reference's when the
    entries are real, which the precondition gives. -/
theorem algebraic : Cert.algebraic_KernelIdeal_ReferenceIdeal := by
  intro m ρ m' ρ' hpre hagree
  refine ⟨fun c => Cert.KernelIdeal.Value.result m c, Cert.KernelIdeal.Value.run m ρ, ?_⟩
  refine (θ_run Cert.ReferenceIdeal.defs _ _).mono (fun _ h c => ⟨(h c).1.trans ?_, (h c).2⟩)
    (Cert.ReferenceIdeal.HandRun.run m' ρ')
  obtain ⟨hA, hP, hN⟩ := Cert.FiniteInputs.real_of_pre (hpre c)
  rw [(hagree c).1, (hagree c).2.1, (hagree c).2.2.1]
  exact Cert.RefLoss.reference_eq _ _ _ hA hP hN

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
